-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x512 : Shape := ⟨2, ![50000, 512]⟩
abbrev S2x800000 : Shape := ⟨2, ![2, 800000]⟩
abbrev S512x128 : Shape := ⟨2, ![512, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S50000x512 : S_.BroadcastsInDim S50000x512 (![] : Fin 0 → Fin S50000x512.rank)
  reducesTo_S50000x512_S_d0_1 : S50000x512.ReducesTo [0, 1] S_
  h_S_ : 0 < S_.numel
  bcast_S_S512x128 : S_.BroadcastsInDim S512x128 (![] : Fin 0 → Fin S512x128.rank)
  reducesTo_S512x128_S_d0_1 : S512x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S50000x512 .f32) (main_arg1 : IVec S2x800000 32) (main_arg2 : FVec F S512x128 .f32) (main_arg3 : FVec F S128 .f32) (main_arg4 : FVec F S128x64 .f32) (main_arg5 : FVec F S64 .f32) : IVec S_ 1 :=
  let main_v0 : FVec F S50000x512 .f32 := Host.absf main_arg0
  let main_cst : FVec F S_ .f32 := constant S_ .f32 0x7F800000#32
  let main_v1 : FVec F S50000x512 .f32 := broadcastInDim S50000x512 ![] bcast_S_S50000x512 main_cst
  let main_v2 : IVec S50000x512 1 := cmpf .olt main_v0 main_v1
  let main_c : IVec S_ 1 := constantI S_ 1 1#1
  let main_v3 : IVec S_ 1 := (fun x v => Host.reduce IntOp.andi x v reducesTo_S50000x512_S_d0_1 h_S_) main_v2 main_c
  let main_v4 : FVec F S512x128 .f32 := Host.absf main_arg2
  let main_cst_0 : FVec F S_ .f32 := constant S_ .f32 0x7F800000#32
  let main_v5 : FVec F S512x128 .f32 := broadcastInDim S512x128 ![] bcast_S_S512x128 main_cst_0
  let main_v6 : IVec S512x128 1 := cmpf .olt main_v4 main_v5
  let main_c_1 : IVec S_ 1 := constantI S_ 1 1#1
  let main_v7 : IVec S_ 1 := (fun x v => Host.reduce IntOp.andi x v reducesTo_S512x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_v13 main_v16
-- ==== Kernel.lean ====
abbrev S50000x512 : Shape := ⟨2, ![50000, 512]⟩
abbrev S2x800000 : Shape := ⟨2, ![2, 800000]⟩
abbrev S512x128 : Shape := ⟨2, ![512, 128]⟩
abbrev S128 : Shape := ⟨1, ![128]⟩
abbrev S128x64 : Shape := ⟨2, ![128, 64]⟩
abbrev S64 : Shape := ⟨1, ![64]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x128 : Shape := ⟨2, ![50000, 128]⟩
abbrev S2000x512 : Shape := ⟨2, ![2000, 512]⟩
abbrev S2000x128 : Shape := ⟨2, ![2000, 128]⟩
abbrev S850000x128 : Shape := ⟨2, ![850000, 128]⟩
abbrev S1x128 : Shape := ⟨2, ![1, 128]⟩
abbrev S5000x128 : Shape := ⟨2, ![5000, 128]⟩
abbrev S50000x64 : Shape := ⟨2, ![50000, 64]⟩
abbrev S2000x64 : Shape := ⟨2, ![2000, 64]⟩
abbrev S850000x64 : Shape := ⟨2, ![850000, 64]⟩
abbrev S1x64 : Shape := ⟨2, ![1, 64]⟩
abbrev S5000x64 : Shape := ⟨2, ![5000, 64]⟩

abbrev nBuf : Space → Nat
  | .hbm => 84
  | .vmem => 20
  | .smem => 0
  | _ => 0

abbrev bufTy : (tb : Table) → Fin (tcTables nBuf tb) → BufTy
  | .hbm, ⟨0, _⟩ => ⟨S50000x512, .f32⟩
  | .hbm, ⟨1, _⟩ => ⟨S2x800000, .i32⟩
  | .hbm, ⟨2, _⟩ => ⟨S512x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S50000, .i32⟩
  | .hbm, ⟨7, _⟩ => ⟨S1x800000, .i32⟩
  | .hbm, ⟨8, _⟩ => ⟨S800000, .i32⟩
  | .hbm, ⟨9, _⟩ => ⟨S850000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .i32⟩
  | .hbm, ⟨28, _⟩ => ⟨S850000, .i32⟩
  | .hbm, ⟨29, _⟩ => ⟨S850000, .i1⟩
  | .hbm, ⟨30, _⟩ => ⟨S_, .i32⟩
  | .hbm, ⟨31, _⟩ => ⟨S850000, .i32⟩
  | .hbm, ⟨32, _⟩ => ⟨S850000, .i32⟩
  | .hbm, ⟨33, _⟩ => ⟨S850000, .i32⟩
  | .hbm, ⟨34, _⟩ => ⟨S850000x1, .i32⟩
  | .hbm, ⟨35, _⟩ => ⟨S850000, .f32⟩
  | .hbm, ⟨36, _⟩ => ⟨S_, .i32⟩
  | .hbm, ⟨37, _⟩ => ⟨S850000, .i32⟩
  | .hbm, ⟨38, _⟩ => ⟨S850000, .i1⟩
  | .hbm, ⟨39, _⟩ => ⟨S_, .i32⟩
  | .hbm, ⟨40, _⟩ => ⟨S850000, .i32⟩
  | .hbm, ⟨41, _⟩ => ⟨S850000, .i32⟩
  | .hbm, ⟨42, _⟩ => ⟨S850000, .i32⟩
  | .hbm, ⟨43, _⟩ => ⟨S850000x1, .i32⟩
  | .hbm, ⟨44, _⟩ => ⟨S850000, .f32⟩
  | .hbm, ⟨45, _⟩ => ⟨S850000, .f32⟩
  | .hbm, ⟨46, _⟩ => ⟨S50000x128, .f32⟩
  | .hbm, ⟨47, _⟩ => ⟨S_, .i32⟩
  | .hbm, ⟨48, _⟩ => ⟨S850000, .i32⟩
  | .hbm, ⟨49, _⟩ => ⟨S850000, .i1⟩
  | .hbm, ⟨50, _⟩ => ⟨S_, .i32⟩
  | .hbm, ⟨51, _⟩ => ⟨S850000, .i32⟩
  | .hbm, ⟨52, _⟩ => ⟨S850000, .i32⟩
  | .hbm, ⟨53, _⟩ => ⟨S850000, .i32⟩
  | .hbm, ⟨54, _⟩ => ⟨S850000x1, .i32⟩
  | .hbm, ⟨55, _⟩ => ⟨S850000x128, .f32⟩
  | .hbm, ⟨56, _⟩ => ⟨S850000x1, .f32⟩
  | .hbm, ⟨57, _⟩ => ⟨S850000x128, .f32⟩
  | .hbm, ⟨58, _⟩ => ⟨S850000x128, .f32⟩
  | .hbm, ⟨59, _⟩ => ⟨S_, .f32⟩
  | .hbm, ⟨60, _⟩ => ⟨S50000x128, .f32⟩
  | .hbm, ⟨61, _⟩ => ⟨S850000x1, .i32⟩
  | .hbm, ⟨62, _⟩ => ⟨S50000x128, .f32⟩
  | .hbm, ⟨63, _⟩ => ⟨S1x128, .f32⟩
  | .hbm, ⟨64, _⟩ => ⟨S50000x128, .f32⟩
  | .hbm, ⟨65, _⟩ => ⟨S50000x64, .f32⟩
  | .hbm, ⟨66, _⟩ => ⟨S_, .i32⟩
  | .hbm, ⟨67, _⟩ => ⟨S850000, .i32⟩
  | .hbm, ⟨68, _⟩ => ⟨S850000, .i1⟩
  | .hbm, ⟨69, _⟩ => ⟨S_, .i32⟩
  | .hbm, ⟨70, _⟩ => ⟨S850000, .i32⟩
  | .hbm, ⟨71, _⟩ => ⟨S850000, .i32⟩
  | .hbm, ⟨72, _⟩ => ⟨S850000, .i32⟩
  | .hbm, ⟨73, _⟩ => ⟨S850000x1, .i32⟩
  | .hbm, ⟨74, _⟩ => ⟨S850000x64, .f32⟩
  | .hbm, ⟨75, _⟩ => ⟨S850000x1, .f32⟩
  | .hbm, ⟨76, _⟩ => ⟨S850000x64, .f32⟩
  | .hbm, ⟨77, _⟩ => ⟨S850000x64, .f32⟩
  | .hbm, ⟨78, _⟩ => ⟨S_, .f32⟩
  | .hbm, ⟨79, _⟩ => ⟨S50000x64, .f32⟩
  | .hbm, ⟨80, _⟩ => ⟨S850000x1, .i32⟩
  | .hbm, ⟨81, _⟩ => ⟨S50000x64, .f32⟩
  | .hbm, ⟨82, _⟩ => ⟨S1x64, .f32⟩
  | .hbm, ⟨83, _⟩ => ⟨S50000x64, .f32⟩
  | .local _ .vmem, ⟨0, _⟩ => ⟨S2000x512, .f32⟩
  | .local _ .vmem, ⟨1, _⟩ => ⟨S2000x512, .f32⟩
  | .local _ .vmem, ⟨2, _⟩ => ⟨S512x128, .f32⟩
  | .local _ .vmem, ⟨3, _⟩ => ⟨S2000x128, .f32⟩
  | .local _ .vmem, ⟨4, _⟩ => ⟨S2000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S2000x128, .f32⟩
  | .local _ .vmem, ⟨11, _⟩ => ⟨S2000x128, .f32⟩
  | .local _ .vmem, ⟨12, _⟩ => ⟨S128x64, .f32⟩
  | .local _ .vmem, ⟨13, _⟩ => ⟨S2000x64, .f32⟩
  | .local _ .vmem, ⟨14, _⟩ => ⟨S2000x64, .f32⟩
  | .local _ .vmem, ⟨15, _⟩ => ⟨S5000x64, .f32⟩
  | .local _ .vmem, ⟨16, _⟩ => ⟨S5000x64, .f32⟩
  | .local _ .vmem, ⟨17, _⟩ => ⟨S1x64, .f32⟩
  | .local _ .vmem, ⟨18, _⟩ => ⟨S5000x64, .f32⟩
  | .local _ .vmem, ⟨19, _⟩ => ⟨S5000x64, .f32⟩
  | _, _ => ⟨S50000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_c_9 : Ref sig .tc := ⟨.hbm, 66, rfl⟩
abbrev main_v47 : Ref sig .tc := ⟨.hbm, 67, rfl⟩
abbrev main_v48 : Ref sig .tc := ⟨.hbm, 68, rfl⟩
abbrev main_c_10 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_11 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S2000x512_S2000x512_0_0 : ∀ a, (![0, 0] : Fin 2 → Nat) a + S2000x512.size a ≤ S2000x512.size a
  h_S2000x512 : 0 < S2000x512.numel
  bitsLt_bf16_f32 : FTy.bits .bf16 < FTy.bits .f32
  inb_S512x128_S512x128_0_0 : ∀ a, (![0, 0] : Fin 2 → Nat) a + S512x128.size a ≤ S512x128.size a
  h_S512x128 : 0 < S512x128.numel
  inb_S2000x128_S2000x128_0_0 : ∀ a, (![0, 0] : Fin 2 → Nat) a + S2000x128.size a ≤ S2000x128.size a
  h_S2000x128 : 0 < S2000x128.numel
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  shapeCasts_S2000x128_S2000x128 : S2000x128.ShapeCasts S2000x128
  inb_S128x64_S128x64_0_0 : ∀ a, (![0, 0] : Fin 2 → Nat) a + S128x64.size a ≤ S128x64.size a
  h_S128x64 : 0 < S128x64.numel
  inb_S2000x64_S2000x64_0_0 : ∀ a, (![0, 0] : Fin 2 → Nat) a + S2000x64.size a ≤ S2000x64.size a
  h_S2000x64 : 0 < S2000x64.numel
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  shapeCasts_S64_S1x64 : S64.ShapeCasts S1x64
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S2000x512_S512x128_S2000x128_1_0_0_1_n_n_wf : DotDims.WF S2000x512 S512x128 S2000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S2000x128_S128x64_S2000x64_1_0_0_1_n_n_wf : DotDims.WF S2000x128 S128x64 S2000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S50000x512.size a
  hwx0_0 : ∀ i : grid0.Coords, EltTy.bits .f32 = 32 ∨ (Rect.block (s := S50000x512) S2000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x128.size a ≤ S512x128.size a
  hwx0_1 : ∀ i : grid0.Coords, EltTy.bits .f32 = 32 ∨ (Rect.block (s := S512x128) S512x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S50000x128.size a
  hwx0_2 : ∀ i : grid0.Coords, EltTy.bits .f32 = 32 ∨ (Rect.block (s := S50000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x64.size a ≤ S128x64.size a
  hwx2_1 : ∀ i : grid2.Coords, EltTy.bits .f32 = 32 ∨ (Rect.block (s := S128x64) S128x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x64.size a ≤ S50000x64.size a
  hwx2_2 : ∀ i : grid2.Coords, EltTy.bits .f32 = 32 ∨ (Rect.block (s := S50000x64) S2000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S50000x64.size a
  hwx3_0 : ∀ i : grid3.Coords, EltTy.bits .f32 = 32 ∨ (Rect.block (s := S50000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x64.size a ≤ S50000x64.size a
  hwx3_2 : ∀ i : grid3.Coords, EltTy.bits .f32 = 32 ∨ (Rect.block (s := S50000x64) S5000x64.size (cc3_transform_2 i) (hinb3_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S2000x512_S512x128_S2000x128_1_0_0_1_n_n : DotDims S2000x512 S512x128 S2000x128 where
  lhsContracting := [1]
  rhsContracting := [0]
  lhsNonContracting := [0]
  rhsNonContracting := [1]
  lhsBatch := []
  rhsBatch := []
  wf := dot_S2000x512_S512x128_S2000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf

abbrev win0_0 : Pipeline.Window sig grid0 :=
  Pipeline.Window.ofSpec (Memref.whole main_arg0) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S2000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v59) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v60) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v61) S5000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S50000x512 : Shape := ⟨2, ![50000, 512]⟩
abbrev S2x800000 : Shape := ⟨2, ![2, 800000]⟩
abbrev S512x128 : Shape := ⟨2, ![512, 128]⟩
abbrev S128 : Shape := ⟨1, ![128]⟩
abbrev S128x64 : Shape := ⟨2, ![128, 64]⟩
abbrev S64 : Shape := ⟨1, ![64]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x128 : Shape := ⟨2, ![50000, 128]⟩
abbrev S850000x128 : Shape := ⟨2, ![850000, 128]⟩
abbrev S1x128 : Shape := ⟨2, ![1, 128]⟩
abbrev S50000x64 : Shape := ⟨2, ![50000, 64]⟩
abbrev S850000x64 : Shape := ⟨2, ![850000, 64]⟩
abbrev S1x64 : Shape := ⟨2, ![1, 64]⟩

abbrev nBuf : Space → Nat
  | .hbm => 92
  | .vmem => 0
  | .smem => 0
  | _ => 0

abbrev bufTy : (tb : Table) → Fin (tcTables nBuf tb) → BufTy
  | .hbm, ⟨0, _⟩ => ⟨S50000x512, .f32⟩
  | .hbm, ⟨1, _⟩ => ⟨S2x800000, .i32⟩
  | .hbm, ⟨2, _⟩ => ⟨S512x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S50000, .i32⟩
  | .hbm, ⟨7, _⟩ => ⟨S1x800000, .i32⟩
  | .hbm, ⟨8, _⟩ => ⟨S800000, .i32⟩
  | .hbm, ⟨9, _⟩ => ⟨S850000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .i32⟩
  | .hbm, ⟨28, _⟩ => ⟨S850000, .i32⟩
  | .hbm, ⟨29, _⟩ => ⟨S850000, .i1⟩
  | .hbm, ⟨30, _⟩ => ⟨S_, .i32⟩
  | .hbm, ⟨31, _⟩ => ⟨S850000, .i32⟩
  | .hbm, ⟨32, _⟩ => ⟨S850000, .i32⟩
  | .hbm, ⟨33, _⟩ => ⟨S850000, .i32⟩
  | .hbm, ⟨34, _⟩ => ⟨S850000x1, .i32⟩
  | .hbm, ⟨35, _⟩ => ⟨S850000, .f32⟩
  | .hbm, ⟨36, _⟩ => ⟨S_, .i32⟩
  | .hbm, ⟨37, _⟩ => ⟨S850000, .i32⟩
  | .hbm, ⟨38, _⟩ => ⟨S850000, .i1⟩
  | .hbm, ⟨39, _⟩ => ⟨S_, .i32⟩
  | .hbm, ⟨40, _⟩ => ⟨S850000, .i32⟩
  | .hbm, ⟨41, _⟩ => ⟨S850000, .i32⟩
  | .hbm, ⟨42, _⟩ => ⟨S850000, .i32⟩
  | .hbm, ⟨43, _⟩ => ⟨S850000x1, .i32⟩
  | .hbm, ⟨44, _⟩ => ⟨S850000, .f32⟩
  | .hbm, ⟨45, _⟩ => ⟨S850000, .f32⟩
  | .hbm, ⟨46, _⟩ => ⟨S50000x128, .f32⟩
  | .hbm, ⟨47, _⟩ => ⟨S_, .i32⟩
  | .hbm, ⟨48, _⟩ => ⟨S850000, .i32⟩
  | .hbm, ⟨49, _⟩ => ⟨S850000, .i1⟩
  | .hbm, ⟨50, _⟩ => ⟨S_, .i32⟩
  | .hbm, ⟨51, _⟩ => ⟨S850000, .i32⟩
  | .hbm, ⟨52, _⟩ => ⟨S850000, .i32⟩
  | .hbm, ⟨53, _⟩ => ⟨S850000, .i32⟩
  | .hbm, ⟨54, _⟩ => ⟨S850000x1, .i32⟩
  | .hbm, ⟨55, _⟩ => ⟨S850000x128, .f32⟩
  | .hbm, ⟨56, _⟩ => ⟨S850000x1, .f32⟩
  | .hbm, ⟨57, _⟩ => ⟨S850000x128, .f32⟩
  | .hbm, ⟨58, _⟩ => ⟨S850000x128, .f32⟩
  | .hbm, ⟨59, _⟩ => ⟨S_, .f32⟩
  | .hbm, ⟨60, _⟩ => ⟨S50000x128, .f32⟩
  | .hbm, ⟨61, _⟩ => ⟨S850000x1, .i32⟩
  | .hbm, ⟨62, _⟩ => ⟨S50000x128, .f32⟩
  | .hbm, ⟨63, _⟩ => ⟨S1x128, .f32⟩
  | .hbm, ⟨64, _⟩ => ⟨S50000x128, .f32⟩
  | .hbm, ⟨65, _⟩ => ⟨S50000x128, .f32⟩
  | .hbm, ⟨66, _⟩ => ⟨S_, .f32⟩
  | .hbm, ⟨67, _⟩ => ⟨S50000x128, .f32⟩
  | .hbm, ⟨68, _⟩ => ⟨S50000x128, .f32⟩
  | .hbm, ⟨69, _⟩ => ⟨S50000x64, .f32⟩
  | .hbm, ⟨70, _⟩ => ⟨S_, .i32⟩
  | .hbm, ⟨71, _⟩ => ⟨S850000, .i32⟩
  | .hbm, ⟨72, _⟩ => ⟨S850000, .i1⟩
  | .hbm, ⟨73, _⟩ => ⟨S_, .i32⟩
  | .hbm, ⟨74, _⟩ => ⟨S850000, .i32⟩
  | .hbm, ⟨75, _⟩ => ⟨S850000, .i32⟩
  | .hbm, ⟨76, _⟩ => ⟨S850000, .i32⟩
  | .hbm, ⟨77, _⟩ => ⟨S850000x1, .i32⟩
  | .hbm, ⟨78, _⟩ => ⟨S850000x64, .f32⟩
  | .hbm, ⟨79, _⟩ => ⟨S850000x1, .f32⟩
  | .hbm, ⟨80, _⟩ => ⟨S850000x64, .f32⟩
  | .hbm, ⟨81, _⟩ => ⟨S850000x64, .f32⟩
  | .hbm, ⟨82, _⟩ => ⟨S_, .f32⟩
  | .hbm, ⟨83, _⟩ => ⟨S50000x64, .f32⟩
  | .hbm, ⟨84, _⟩ => ⟨S850000x1, .i32⟩
  | .hbm, ⟨85, _⟩ => ⟨S50000x64, .f32⟩
  | .hbm, ⟨86, _⟩ => ⟨S1x64, .f32⟩
  | .hbm, ⟨87, _⟩ => ⟨S50000x64, .f32⟩
  | .hbm, ⟨88, _⟩ => ⟨S50000x64, .f32⟩
  | .hbm, ⟨89, _⟩ => ⟨S_, .f32⟩
  | .hbm, ⟨90, _⟩ => ⟨S50000x64, .f32⟩
  | .hbm, ⟨91, _⟩ => ⟨S50000x64, .f32⟩
  | _, _ => ⟨S50000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_call2_cst : Ref sig .tc := ⟨.hbm, 89, rfl⟩
abbrev main_call2_v0 : Ref sig .tc := ⟨.hbm, 90, rfl⟩
abbrev main_v65 : Ref sig .tc := ⟨.hbm, 91, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x512_S512x128_S50000x128_1_0_0_1_n_n_wf : DotDims.WF S50000x512 S512x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x128_S128x64_S50000x64_1_0_0_1_n_n_wf : DotDims.WF S50000x128 S128x64 S50000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x512_S512x128_S50000x128_1_0_0_1_n_n : DotDims S50000x512 S512x128 S50000x128 where
  lhsContracting := [1]
  rhsContracting := [0]
  lhsNonContracting := [0]
  rhsNonContracting := [1]
  lhsBatch := []
  rhsBatch := []
  wf := dot_S50000x512_S512x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf

class Facts : Prop extends Facts₀ where

variable [Facts]
-- ==== Proof.KernelRun.lean ====
/-
  The kernel program's run with its RESULT named. @main is nine segments — three stretches of host operations, the first
  matrix product, a stretch, the first bias-and-relu, the second matrix product, a stretch, the second bias-and-relu —
  and the buffer contents at the nine boundaries are a fold from the launch memory (the generated `W0 … W9`). The
  launch theorem for programs of several regions, applied to the generated segments, ends with every unscoped buffer
  at the last boundary's contents; read at the result buffer it says: every weakly fair execution terminates, without
  a fault, with the result at `W9 … main_v61` and the six arguments as launched.
-/
import proofs.«154127_j76819785056520_1_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last boundary's
    contents and the argument arrays as launched. -/
theorem run_result : θ_run defs (onTc (τ := τ) (main (F := F))) ⟨m, fun _ => 0, ρ⟩ (fun r => ∀ c : Dev nD,
      r.2.mem ((c.tc : Thread nD τ).loc main_v61) = W9 m ρ c (Proc.devRef .tc main_v61)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v61 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c)⟩)

end Cert.KernelIdeal.Whole

end
-- ==== Proof.Carry.lean ====
/-
  Buffers that ride through the boundaries unchanged. The sources, the targets and the edge weights are computed once,
  before the first matrix product, and read again by the host operations after each product; no region has any of the
  three among its windows and no later host operation writes them, so at every later boundary they hold what they held
  when the first region was entered. Likewise an argument array is written by nothing, so wherever a region or a host
  operation reads it, it holds its launch contents.
-/
import proofs.«154127_j76819785056520_1_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe

variable {F : FTy → Type} [FloatOps F]

/-- A buffer that no operation of a stretch writes holds after the stretch what it held before: the operations'
    written buffers are listed, and each differs from the buffer. -/
macro "kept_by " ops:ident : tactic => `(tactic|
  exact StableHlo.after_of_forall_not_mem _ _ (List.forall_iff_forall_mem.mp (by
    simp only [$ops:ident, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))))

variable (m : (ℓ : Loc nD τ sig) → Buf (Elt F) ℓ) (ρ : Dev nD → PrngReg) (c : Dev nD)

/-- The sources when the second stretch begins are those the first region was entered with. -/
theorem sources_at_W4 : W4 m ρ c (Proc.devRef .tc main_v3) = W3 m ρ c (Proc.devRef .tc main_v3) :=
  calc W4 m ρ c (Proc.devRef .tc main_v3)
    _ = W3 m ρ c (Proc.devRef .tc main_v3) := W4_of_ne m ρ c main_v3 (by decide)

/-- The targets likewise. -/
theorem targets_at_W4 : W4 m ρ c (Proc.devRef .tc main_v6) = W3 m ρ c (Proc.devRef .tc main_v6) :=
  calc W4 m ρ c (Proc.devRef .tc main_v6)
    _ = W3 m ρ c (Proc.devRef .tc main_v6) := W4_of_ne m ρ c main_v6 (by decide)

/-- The edge weights likewise. -/
theorem weights_at_W4 : W4 m ρ c (Proc.devRef .tc main_v29) = W3 m ρ c (Proc.devRef .tc main_v29) :=
  calc W4 m ρ c (Proc.devRef .tc main_v29)
    _ = W3 m ρ c (Proc.devRef .tc main_v29) := W4_of_ne m ρ c main_v29 (by decide)

/-- The sources when the last stretch begins are still those the first region was entered with. -/
theorem sources_at_W7 : W7 m ρ c (Proc.devRef .tc main_v3) = W3 m ρ c (Proc.devRef .tc main_v3) :=
  calc W7 m ρ c (Proc.devRef .tc main_v3)
    _ = W6 m ρ c (Proc.devRef .tc main_v3) := W7_of_ne m ρ c main_v3 (by decide)
    _ = W5 m ρ c (Proc.devRef .tc main_v3) := W6_of_ne m ρ c main_v3 (by decide)
    _ = W4 m ρ c (Proc.devRef .tc main_v3) := by kept_by hostOps1
    _ = W3 m ρ c (Proc.devRef .tc main_v3) := W4_of_ne m ρ c main_v3 (by decide)

/-- The targets likewise. -/
theorem targets_at_W7 : W7 m ρ c (Proc.devRef .tc main_v6) = W3 m ρ c (Proc.devRef .tc main_v6) :=
  calc W7 m ρ c (Proc.devRef .tc main_v6)
    _ = W6 m ρ c (Proc.devRef .tc main_v6) := W7_of_ne m ρ c main_v6 (by decide)
    _ = W5 m ρ c (Proc.devRef .tc main_v6) := W6_of_ne m ρ c main_v6 (by decide)
    _ = W4 m ρ c (Proc.devRef .tc main_v6) := by kept_by hostOps1
    _ = W3 m ρ c (Proc.devRef .tc main_v6) := W4_of_ne m ρ c main_v6 (by decide)

/-- The edge weights likewise. -/
theorem weights_at_W7 : W7 m ρ c (Proc.devRef .tc main_v29) = W3 m ρ c (Proc.devRef .tc main_v29) :=
  calc W7 m ρ c (Proc.devRef .tc main_v29)
    _ = W6 m ρ c (Proc.devRef .tc main_v29) := W7_of_ne m ρ c main_v29 (by decide)
    _ = W5 m ρ c (Proc.devRef .tc main_v29) := W6_of_ne m ρ c main_v29 (by decide)
    _ = W4 m ρ c (Proc.devRef .tc main_v29) := by kept_by hostOps1
    _ = W3 m ρ c (Proc.devRef .tc main_v29) := W4_of_ne m ρ c main_v29 (by decide)

/-- The node features as the first matrix product finds them: the launch contents. -/
theorem arg0_at_W3 : W3 m ρ c (Proc.devRef .tc main_arg0) = m ((c : Thread nD τ).loc main_arg0) :=
  calc W3 m ρ c (Proc.devRef .tc main_arg0)
    _ = W2 m ρ c (Proc.devRef .tc main_arg0) := by kept_by hostOps0_2
    _ = W1 m ρ c (Proc.devRef .tc main_arg0) := by kept_by hostOps0_1
    _ = W0 m ρ c (Proc.devRef .tc main_arg0) := by kept_by hostOps0
    _ = m ((c : Thread nD τ).loc main_arg0) := rfl

/-- The edge list at launch. -/
theorem arg1_at_W0 : W0 m ρ c (Proc.devRef .tc main_arg1) = m ((c : Thread nD τ).loc main_arg1) :=
  calc W0 m ρ c (Proc.devRef .tc main_arg1)
    _ = m ((c : Thread nD τ).loc main_arg1) := rfl

/-- The first weight matrix as the first matrix product finds it. -/
theorem arg2_at_W3 : W3 m ρ c (Proc.devRef .tc main_arg2) = m ((c : Thread nD τ).loc main_arg2) :=
  calc W3 m ρ c (Proc.devRef .tc main_arg2)
    _ = W2 m ρ c (Proc.devRef .tc main_arg2) := by kept_by hostOps0_2
    _ = W1 m ρ c (Proc.devRef .tc main_arg2) := by kept_by hostOps0_1
    _ = W0 m ρ c (Proc.devRef .tc main_arg2) := by kept_by hostOps0
    _ = m ((c : Thread nD τ).loc main_arg2) := rfl

/-- The first bias as the second stretch reads it. -/
theorem arg3_at_W4 : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := by kept_by hostOps0_2
    _ = W1 m ρ c (Proc.devRef .tc main_arg3) := by kept_by hostOps0_1
    _ = W0 m ρ c (Proc.devRef .tc main_arg3) := by kept_by hostOps0
    _ = m ((c : Thread nD τ).loc main_arg3) := rfl

/-- The second weight matrix as the second matrix product finds it. -/
theorem arg4_at_W6 : W6 m ρ c (Proc.devRef .tc main_arg4) = m ((c : Thread nD τ).loc main_arg4) :=
  calc W6 m ρ c (Proc.devRef .tc main_arg4)
    _ = W5 m ρ c (Proc.devRef .tc main_arg4) := W6_of_ne m ρ c main_arg4 (by decide)
    _ = W4 m ρ c (Proc.devRef .tc main_arg4) := by kept_by hostOps1
    _ = W3 m ρ c (Proc.devRef .tc main_arg4) := W4_of_ne m ρ c main_arg4 (by decide)
    _ = W2 m ρ c (Proc.devRef .tc main_arg4) := by kept_by hostOps0_2
    _ = W1 m ρ c (Proc.devRef .tc main_arg4) := by kept_by hostOps0_1
    _ = W0 m ρ c (Proc.devRef .tc main_arg4) := by kept_by hostOps0
    _ = m ((c : Thread nD τ).loc main_arg4) := rfl

/-- The second bias as the last stretch reads it. -/
theorem arg5_at_W7 : W7 m ρ c (Proc.devRef .tc main_arg5) = m ((c : Thread nD τ).loc main_arg5) :=
  calc W7 m ρ c (Proc.devRef .tc main_arg5)
    _ = W6 m ρ c (Proc.devRef .tc main_arg5) := W7_of_ne m ρ c main_arg5 (by decide)
    _ = W5 m ρ c (Proc.devRef .tc main_arg5) := W6_of_ne m ρ c main_arg5 (by decide)
    _ = W4 m ρ c (Proc.devRef .tc main_arg5) := by kept_by hostOps1
    _ = W3 m ρ c (Proc.devRef .tc main_arg5) := W4_of_ne m ρ c main_arg5 (by decide)
    _ = W2 m ρ c (Proc.devRef .tc main_arg5) := by kept_by hostOps0_2
    _ = W1 m ρ c (Proc.devRef .tc main_arg5) := by kept_by hostOps0_1
    _ = W0 m ρ c (Proc.devRef .tc main_arg5) := by kept_by hostOps0
    _ = m ((c : Thread nD τ).loc main_arg5) := rfl

end Cert.KernelIdeal.Whole

end
-- ==== Proof.Spec.lean ====
/-
  A two-layer graph convolution with self-loops and symmetric normalization, as ONE function of its six arguments.

  From the edge list e : i32[2, 800000] come the message sources (row 0 followed by 0 … 49999, the self-loops) and the
  aggregation targets (row 1 followed by the same), 850000 each. The degree of a node is the number of edges aimed at
  it (a scatter-add of ones), its weight d(v) the reciprocal square root of that degree where the degree is positive
  and 0 elsewhere, and the weight of edge j is d(source j) · d(target j). A layer sends a node-feature matrix H through
    H ↦ relu( A(H · W) + b ),   A(Z)(v, ·) = Σ over edges j aimed at v of weight j · Z(source j, ·),
  the sum A a scatter-add into zeros of the gathered, weighted rows; the bias b is added to every row. The network is
  two such layers, 512 → 128 → 64. A negative index is wrapped once by adding 50000 before the gather, as the printed
  programs do. Everything is stated over the operations of the printed host program, at any float instance.
-/
import proofs.«154127_j76819785056520_1_alg».proof.Proof.Gen.ReferenceIdeal

noncomputable section

namespace Cert.Gcn

open Cert.ReferenceIdeal Cert.ReferenceIdeal.Gen Idealize.ShloMosaic

variable {F : FTy → Type} [FloatOps F]

/-- The message sources: row 0 of the edge list, then the self-loops 0 … 49999. -/
def sources (e : IVec S2x800000 32) : IVec S850000 32 :=
  concatenate S850000 0 [⟨S800000, (shapeCast _ (extractStridedSlice S1x800000 ![0, 0] e slices_S2x800000_S1x800000_0_0) shapeCasts_S1x800000_S800000)⟩, ⟨S50000, (iotaInDim S50000 32 0)⟩] concatenates_S800000_S50000_S850000_d0

/-- The aggregation targets: row 1 of the edge list, then the self-loops. -/
def targets (e : IVec S2x800000 32) : IVec S850000 32 :=
  concatenate S850000 0 [⟨S800000, (shapeCast _ (extractStridedSlice S1x800000 ![1, 0] e slices_S2x800000_S1x800000_1_0) shapeCasts_S1x800000_S800000)⟩, ⟨S50000, (iotaInDim S50000 32 0)⟩] concatenates_S800000_S50000_S850000_d0

/-- A gather's index column: a negative index wrapped once by the number of nodes. -/
def wrapIndex (ix : IVec S850000 32) : IVec S850000x1 32 :=
  broadcastInDim S850000x1 ![0] bcast_S850000_S850000x1_0 (select (cmpi .slt ix (broadcastInDim S850000 ![] bcast_S_S850000 (constantI S_ 32 0#32))) (addi ix (broadcastInDim S850000 ![] bcast_S_S850000 (constantI S_ 32 50000#32))) ix)

/-- The degree of each node: ones added up along the targets. -/
def degree (e : IVec S2x800000 32) : FVec F S50000 .f32 :=
  Host.scatterAdd scatter_S50000_S850000x1_S850000_n_0_0_1 (broadcastInDim S50000 ![] bcast_S_S50000 (constant S_ .f32 0x00000000#32)) (broadcastInDim S850000x1 ![0] bcast_S850000_S850000x1_0 (targets e)) (broadcastInDim S850000 ![] bcast_S_S850000 (constant S_ .f32 0x3F800000#32))

/-- The node weight: 1 / sqrt(degree) where the degree is positive, 0 elsewhere. -/
def nodeWeight (e : IVec S2x800000 32) : FVec F S50000 .f32 :=
  select (cmpf .ogt (degree (F := F) e) (broadcastInDim S50000 ![] bcast_S_S50000 (constant S_ .f32 0x00000000#32))) (Host.rsqrt (degree e)) (broadcastInDim S50000 ![] bcast_S_S50000 (id (constant S_ .f32 0x00000000#32)))

/-- The edge weight: the product of the weights of the edge's two ends. -/
def edgeWeight (e : IVec S2x800000 32) : FVec F S850000 .f32 :=
  mulf (Host.gather gather_S50000_S850000x1_S850000_n_0_n_n_0_1_1 (nodeWeight e) (wrapIndex (sources e))) (Host.gather gather_S50000_S850000x1_S850000_n_0_n_n_0_1_1 (nodeWeight e) (wrapIndex (targets e)))

/-- The weighted neighbourhood sum of 128-wide rows over given sources, targets and edge weights: gather each edge's
    source row, scale it by the edge's weight, add it into the edge's target row of zeros. -/
def weightedSum128 (src dst : IVec S850000 32) (wt : FVec F S850000 .f32) (z : FVec F S50000x128 .f32) : FVec F S50000x128 .f32 :=
  Host.scatterAdd scatter_S50000x128_S850000x1_S850000x128_1_0_0_1 (broadcastInDim S50000x128 ![] bcast_S_S50000x128 (constant S_ .f32 0x00000000#32)) (broadcastInDim S850000x1 ![0] bcast_S850000_S850000x1_0 dst) (mulf (Host.gather gather_S50000x128_S850000x1_S850000x128_1_0_n_n_0_1_1128 z (wrapIndex src)) (broadcastInDim S850000x128 ![0, 1] bcast_S850000x1_S850000x128_0_1 (broadcastInDim S850000x1 ![0] bcast_S850000_S850000x1_0 wt)))

/-- The same sum of 64-wide rows. -/
def weightedSum64 (src dst : IVec S850000 32) (wt : FVec F S850000 .f32) (z : FVec F S50000x64 .f32) : FVec F S50000x64 .f32 :=
  Host.scatterAdd scatter_S50000x64_S850000x1_S850000x64_1_0_0_1 (broadcastInDim S50000x64 ![] bcast_S_S50000x64 (constant S_ .f32 0x00000000#32)) (broadcastInDim S850000x1 ![0] bcast_S850000_S850000x1_0 dst) (mulf (Host.gather gather_S50000x64_S850000x1_S850000x64_1_0_n_n_0_1_164 z (wrapIndex src)) (broadcastInDim S850000x64 ![0, 1] bcast_S850000x1_S850000x64_0_1 (broadcastInDim S850000x1 ![0] bcast_S850000_S850000x1_0 wt)))

/-- The graph's weighted neighbourhood sum A(Z) of 128-wide rows. -/
def aggregate128 (e : IVec S2x800000 32) (z : FVec F S50000x128 .f32) : FVec F S50000x128 .f32 :=
  weightedSum128 (sources e) (targets e) (edgeWeight e) z

/-- The graph's weighted neighbourhood sum A(Z) of 64-wide rows. -/
def aggregate64 (e : IVec S2x800000 32) (z : FVec F S50000x64 .f32) : FVec F S50000x64 .f32 :=
  weightedSum64 (sources e) (targets e) (edgeWeight e) z

/-- relu(a + b) with the bias row b : [1, 128] added to every row of a. -/
def biasRelu128 (a : FVec F S50000x128 .f32) (b : FVec F S1x128 .f32) : FVec F S50000x128 .f32 :=
  maximumf (addf a (broadcastInDim S50000x128 ![0, 1] bcast_S1x128_S50000x128_0_1 b)) (broadcastInDim S50000x128 ![] bcast_S_S50000x128 (constant S_ .f32 0x00000000#32))

/-- relu(a + b) with the bias row b : [1, 64] added to every row of a. -/
def biasRelu64 (a : FVec F S50000x64 .f32) (b : FVec F S1x64 .f32) : FVec F S50000x64 .f32 :=
  maximumf (addf a (broadcastInDim S50000x64 ![0, 1] bcast_S1x64_S50000x64_0_1 b)) (broadcastInDim S50000x64 ![] bcast_S_S50000x64 (constant S_ .f32 0x00000000#32))

/-- The first dense transform, X · W1. -/
def product1 (x : FVec F S50000x512 .f32) (w : FVec F S512x128 .f32) : FVec F S50000x128 .f32 :=
  Host.dotGeneral dot_S50000x512_S512x128_S50000x128_1_0_0_1_n_n none x w

/-- The second dense transform, H · W2. -/
def product2 (h : FVec F S50000x128 .f32) (w : FVec F S128x64 .f32) : FVec F S50000x64 .f32 :=
  Host.dotGeneral dot_S50000x128_S128x64_S50000x64_1_0_0_1_n_n none h w

/-- The hidden layer: relu(A(X · W1) + b1). -/
def hidden (x : FVec F S50000x512 .f32) (e : IVec S2x800000 32) (w1 : FVec F S512x128 .f32) (b1 : FVec F S128 .f32) : FVec F S50000x128 .f32 :=
  biasRelu128 (aggregate128 e (product1 x w1)) (broadcastInDim S1x128 ![1] bcast_S128_S1x128_1 b1)

/-- The network's result: relu(A(H · W2) + b2) of the hidden layer H. -/
def network (x : FVec F S50000x512 .f32) (e : IVec S2x800000 32) (w1 : FVec F S512x128 .f32) (b1 : FVec F S128 .f32)
    (w2 : FVec F S128x64 .f32) (b2 : FVec F S64 .f32) : FVec F S50000x64 .f32 :=
  biasRelu64 (aggregate64 e (product2 (hidden x e w1 b1) w2)) (broadcastInDim S1x64 ![1] bcast_S64_S1x64_1 b2)

end Cert.Gcn

end
-- ==== Proof.GraphValue.lean ====
/-
  The graph's sources, targets, degrees, node weights and edge weights, as the host operations before the first region
  leave them. The three stretches are read one at a time, from ANY buffer contents P they might start from, each
  result in terms of what the stretch reads: the first stretch builds the sources and the targets from the edge list,
  counts the degrees and takes their reciprocal square roots; the second (an outlined `where`) selects the node weight,
  0 where the degree is not positive; the third gathers the node weights at the two ends of every edge and multiplies
  them. Chained from the launch memory they give the values of `Cert.Gcn`.
-/
import proofs.«154127_j76819785056520_1_alg».proof.Proof.Carry
import proofs.«154127_j76819785056520_1_alg».proof.Proof.Spec
import Idealize.ShloMosaic.Lib.StableHlo.Run
import Idealize.ShloMosaic.PureOps.Ideal

set_option maxRecDepth 16384

noncomputable section

namespace Cert.KernelIdeal.Whole

open Cert.KernelIdeal Cert.KernelIdeal.Gen
open Idealize.ShloMosaic Idealize.ShloMosaic.TcCoe Idealize.ShloMosaic.StableHlo

section AnyContents

variable (P : Valuation τ sig (Elt Ideal))

set_option maxHeartbeats 4000000 in
/-- The first stretch leaves the sources of the edge list it reads … -/
theorem stretch0_sources : after hostOps0 P (Proc.devRef .tc main_v3) = Cert.Gcn.sources (P (Proc.devRef .tc main_arg1)) := by
  after_results
  rfl

set_option maxHeartbeats 4000000 in
/-- … the targets … -/
theorem stretch0_targets : after hostOps0 P (Proc.devRef .tc main_v6) = Cert.Gcn.targets (P (Proc.devRef .tc main_arg1)) := by
  after_results
  rfl

set_option maxHeartbeats 4000000 in
/-- … the flags "degree positive" … -/
theorem stretch0_positive : after hostOps0 P (Proc.devRef .tc main_v12)
    = cmpf .ogt (Cert.Gcn.degree (F := Ideal) (P (Proc.devRef .tc main_arg1))) (broadcastInDim S50000 ![] bcast_S_S50000 (constant S_ .f32 0x00000000#32)) := by
  after_results
  rfl

set_option maxHeartbeats 4000000 in
/-- … the reciprocal square roots of the degrees … -/
theorem stretch0_rsqrt : after hostOps0 P (Proc.devRef .tc main_v13) = Host.rsqrt (Cert.Gcn.degree (F := Ideal) (P (Proc.devRef .tc main_arg1))) := by
  after_results
  rfl

set_option maxHeartbeats 4000000 in
/-- … and a zero. -/
theorem stretch0_zero : after hostOps0 P (Proc.devRef .tc main_cst_2) = constant (F := Ideal) S_ .f32 0x00000000#32 := by
  after_results

set_option maxHeartbeats 4000000 in
/-- The second stretch selects: the reciprocal square root where the flag is set, the zero elsewhere. -/
theorem stretch1_select : after hostOps0_1 P (Proc.devRef .tc main_v14)
    = select (P (Proc.devRef .tc main_v12)) (P (Proc.devRef .tc main_v13)) (broadcastInDim S50000 ![] bcast_S_S50000 (id (P (Proc.devRef .tc main_cst_2)))) := by
  after_results
  rfl

set_option maxHeartbeats 4000000 in
/-- The third stretch multiplies the node weights gathered at the sources with those gathered at the targets. -/
theorem stretch2_weights : after hostOps0_2 P (Proc.devRef .tc main_v29)
    = (mulf (Host.gather gather_S50000_S850000x1_S850000_n_0_n_n_0_1_1 (P (Proc.devRef .tc main_v14) : FVec Ideal S50000 .f32) (Cert.Gcn.wrapIndex (P (Proc.devRef .tc main_v3))))
        (Host.gather gather_S50000_S850000x1_S850000_n_0_n_n_0_1_1 (P (Proc.devRef .tc main_v14) : FVec Ideal S50000 .f32) (Cert.Gcn.wrapIndex (P (Proc.devRef .tc main_v6)))) : FVec Ideal S850000 .f32) := by
  after_results
  rfl

end AnyContents

variable (m : (ℓ : Loc nD τ sig) → Buf (Elt Ideal) ℓ) (ρ : Dev nD → PrngReg) (c : Dev nD)

/-- The sources after the first stretch. -/
theorem sources_at_W1 : W1 m ρ c (Proc.devRef .tc main_v3) = Cert.Gcn.sources (m ((c : Thread nD τ).loc main_arg1)) :=
  stretch0_sources (W0 m ρ c)

/-- The targets after the first stretch. -/
theorem targets_at_W1 : W1 m ρ c (Proc.devRef .tc main_v6) = Cert.Gcn.targets (m ((c : Thread nD τ).loc main_arg1)) :=
  stretch0_targets (W0 m ρ c)

/-- The sources as the first region is entered: no later stretch writes them. -/
theorem sources_at_W3 : W3 m ρ c (Proc.devRef .tc main_v3) = Cert.Gcn.sources (m ((c : Thread nD τ).loc main_arg1)) :=
  calc W3 m ρ c (Proc.devRef .tc main_v3)
    _ = W2 m ρ c (Proc.devRef .tc main_v3) := by kept_by hostOps0_2
    _ = W1 m ρ c (Proc.devRef .tc main_v3) := by kept_by hostOps0_1
    _ = _ := sources_at_W1 m ρ c

/-- The targets as the first region is entered. -/
theorem targets_at_W3 : W3 m ρ c (Proc.devRef .tc main_v6) = Cert.Gcn.targets (m ((c : Thread nD τ).loc main_arg1)) :=
  calc W3 m ρ c (Proc.devRef .tc main_v6)
    _ = W2 m ρ c (Proc.devRef .tc main_v6) := by kept_by hostOps0_2
    _ = W1 m ρ c (Proc.devRef .tc main_v6) := by kept_by hostOps0_1
    _ = _ := targets_at_W1 m ρ c

/-- The node weights after the second stretch. -/
theorem nodeWeight_at_W2 : W2 m ρ c (Proc.devRef .tc main_v14) = Cert.Gcn.nodeWeight (F := Ideal) (m ((c : Thread nD τ).loc main_arg1)) := by
  refine (stretch1_select (W1 m ρ c)).trans ?_
  rw [show W1 m ρ c (Proc.devRef .tc main_v12) = _ from stretch0_positive (W0 m ρ c),
    show W1 m ρ c (Proc.devRef .tc main_v13) = _ from stretch0_rsqrt (W0 m ρ c),
    show W1 m ρ c (Proc.devRef .tc main_cst_2) = _ from stretch0_zero (W0 m ρ c)]
  rfl

/-- The edge weights as the first region is entered. -/
theorem weights_at_W3 : W3 m ρ c (Proc.devRef .tc main_v29) = Cert.Gcn.edgeWeight (F := Ideal) (m ((c : Thread nD τ).loc main_arg1)) := by
  refine (stretch2_weights (W2 m ρ c)).trans ?_
  rw [nodeWeight_at_W2 m ρ c,
    show W2 m ρ c (Proc.devRef .tc main_v3) = _ from (show W2 m ρ c (Proc.devRef .tc main_v3) = W1 m ρ c (Proc.devRef .tc main_v3) by kept_by hostOps0_1).trans (sources_at_W1 m ρ c),
    show W2 m ρ c (Proc.devRef .tc main_v6) = _ from (show W2 m ρ c (Proc.devRef .tc main_v6) = W1 m ρ c (Proc.devRef .tc main_v6) by kept_by hostOps0_1).trans (targets_at_W1 m ρ c)]
  rfl

end Cert.KernelIdeal.Whole

end
-- ==== Proof.LibPlainDot.lean ====
/-
  A plain matrix product, read at an entry, and its row blocks.

  For the dimension numbers of [M, K] × [K, N] → [M, N] (contract the left operand's axis 1 with the right operand's
  axis 0, no batch axis), both spellings of the product over the extended reals are the textbook sum: the host's
  `dot_general`, and the kernel's `tpu.matmul` into a zero accumulator, read at entry (r, c), are
  ∑ₖ A(r, k) · W(k, c) over k < K. Hence a block of B consecutive rows of the product of the long matrix is the
  product of that block of its rows with the same right factor: entry (off + p, c) of A · W is entry (p, c) of
  (rows off … off + B of A) · W. Nothing here needs the entries finite: no sum is reordered and no factor moved.
  General in M, K, N, the block height and the offset.
-/
import Idealize.ShloMosaic.PureOps.Ideal
import Idealize.ShloMosaic.PureOps.Ideal.Laws
import Idealize.ShloMosaic.Lib.ValueIdx

noncomputable section

namespace Cert.LibPlainDot

open Idealize.ShloMosaic Idealize.ShloMosaic.ValueIdx

variable {M K N : Nat} {φ₁ φ₂ : FTy}

/-- The dimension numbers of [M, K] × [K, N] → [M, N]. -/
abbrev dims (wf : DotDims.WF (⟨2, ![M, K]⟩ : Shape) ⟨2, ![K, N]⟩ ⟨2, ![M, N]⟩ [1] [0] [0] [1] [] []) :
    DotDims (⟨2, ![M, K]⟩ : Shape) ⟨2, ![K, N]⟩ ⟨2, ![M, N]⟩ where
  lhsContracting := [1]
  rhsContracting := [0]
  lhsNonContracting := [0]
  rhsNonContracting := [1]
  lhsBatch := []
  rhsBatch := []
  wf := wf

variable (wf : DotDims.WF (⟨2, ![M, K]⟩ : Shape) ⟨2, ![K, N]⟩ ⟨2, ![M, N]⟩ [1] [0] [0] [1] [] [])

/-- The left operand's index at output entry (r, c) and contraction index q: row r … -/
theorem lhs_row (r : Fin M) (c : Fin N) (q : (dims wf).contr.Idx) : ((dims wf).lhsIdx (ix2 r c) q 0).val = r.val := by
  unfold DotDims.lhsIdx
  rw [dif_neg (show ¬(0 : Fin 2) ∈ (dims wf).lhsBatch from List.not_mem_nil), dif_pos (show (0 : Fin 2) ∈ (dims wf).lhsNonContracting from List.mem_singleton.mpr rfl)]
  rfl

/-- … column q. -/
theorem lhs_col (r : Fin M) (c : Fin N) (q : (dims wf).contr.Idx) : ((dims wf).lhsIdx (ix2 r c) q 1).val = (q ⟨0, Nat.one_pos⟩).val :=
  (dims wf).lhsIdx_val_of_single rfl (ix2 r c) q

/-- The right operand's index there: row q … -/
theorem rhs_row (r : Fin M) (c : Fin N) (q : (dims wf).contr.Idx) : ((dims wf).rhsIdx (ix2 r c) q 0).val = (q ⟨0, Nat.one_pos⟩).val :=
  (dims wf).rhsIdx_val_of_single rfl (ix2 r c) q

/-- … column c. -/
theorem rhs_col (r : Fin M) (c : Fin N) (q : (dims wf).contr.Idx) : ((dims wf).rhsIdx (ix2 r c) q 1).val = c.val := by
  unfold DotDims.rhsIdx
  rw [dif_neg (show ¬(1 : Fin 2) ∈ (dims wf).rhsBatch from List.not_mem_nil), dif_pos (show (1 : Fin 2) ∈ (dims wf).rhsNonContracting from List.mem_singleton.mpr rfl)]
  rfl

/-- The sum over the dot's contraction index is the sum over k < K of A(r, k) · W(k, c). -/
theorem sum_contr (A : FVec Ideal ⟨2, ![M, K]⟩ φ₁) (W : FVec Ideal ⟨2, ![K, N]⟩ φ₂) (r : Fin M) (c : Fin N) :
    ∑ q : (dims wf).contr.Idx, A ((dims wf).lhsIdx (ix2 r c) q) * W ((dims wf).rhsIdx (ix2 r c) q)
      = ∑ k : Fin K, A (ix2 r k) * W (ix2 k c) := by
  rw [← Equiv.sum_comp (contrEquiv1 (dims wf) K rfl rfl).symm]
  refine Finset.sum_congr rfl fun k _ => ?_
  have hk := contrEquiv1_symm_val (dims wf) K rfl rfl k
  have el : (dims wf).lhsIdx (ix2 r c) ((contrEquiv1 (dims wf) K rfl rfl).symm k) = ix2 r k := funext fun a => Fin.ext (by
    match a with
    | ⟨0, _⟩ => exact lhs_row wf r c _
    | ⟨1, _⟩ => exact (lhs_col wf r c _).trans hk)
  have er : (dims wf).rhsIdx (ix2 r c) ((contrEquiv1 (dims wf) K rfl rfl).symm k) = ix2 k c := funext fun a => Fin.ext (by
    match a with
    | ⟨0, _⟩ => exact (rhs_row wf r c _).trans hk
    | ⟨1, _⟩ => exact rhs_col wf r c _)
  rw [el, er]

/-- The host's `dot_general` at entry (r, c): ∑ₖ A(r, k) · W(k, c). -/
theorem dotGeneral_apply (prec : Option ContractPrecision) (sched : HostSchedule)
    (A : FVec Ideal ⟨2, ![M, K]⟩ φ₁) (W : FVec Ideal ⟨2, ![K, N]⟩ φ₂) (r : Fin M) (c : Fin N) :
    FloatOps.dotGeneral (dims wf) prec sched A W (ix2 r c) = ∑ k : Fin K, A (ix2 r k) * W (ix2 k c) := by
  rw [Ideal.dotGeneral_apply]
  exact sum_contr wf A W r c

/-- The kernel's `tpu.matmul` into a zero accumulator at entry (r, c): the same sum. -/
theorem matmul_zero_apply (prec : Option ContractPrecision)
    (A : FVec Ideal ⟨2, ![M, K]⟩ φ₁) (W : FVec Ideal ⟨2, ![K, N]⟩ φ₂) (r : Fin M) (c : Fin N) :
    FloatOps.matmul (dims wf) prec A W (constant ⟨2, ![M, N]⟩ .f32 0x00000000#32) (ix2 r c) = ∑ k : Fin K, A (ix2 r k) * W (ix2 k c) := by
  rw [Ideal.matmul_constant_zero_apply]
  exact sum_contr wf A W r c

/-- ROW BLOCKS: entry (off + p, c) of the long product is entry (p, c) of the product of rows off … off + B of the
    left factor with the same right factor, the one a `dot_general`, the other a `tpu.matmul` into zero. -/
theorem dotGeneral_rows {B off : Nat} (hB : off + B ≤ M)
    (wfB : DotDims.WF (⟨2, ![B, K]⟩ : Shape) ⟨2, ![K, N]⟩ ⟨2, ![B, N]⟩ [1] [0] [0] [1] [] [])
    (prec prec' : Option ContractPrecision) (sched : HostSchedule)
    (A : FVec Ideal ⟨2, ![M, K]⟩ φ₁) (W : FVec Ideal ⟨2, ![K, N]⟩ φ₂) (p : Fin B) (c : Fin N) :
    FloatOps.dotGeneral (dims wf) prec sched A W (ix2 ⟨off + p.val, by have := p.isLt; omega⟩ c)
      = FloatOps.matmul (dims wfB) prec'
          (fun y : (⟨2, ![B, K]⟩ : Shape).Idx => A (ix2 ⟨off + (y 0).val, by have := idx2_lt0 y; omega⟩ (y 1)))
          W (constant ⟨2, ![B, N]⟩ .f32 0x00000000#32) (ix2 p c) := by
  rw [dotGeneral_apply, matmul_zero_apply]
  exact Finset.sum_congr rfl fun k _ => rfl

end Cert.LibPlainDot

end
-- ==== Proof.Product1.lean ====
/-
  The first matrix product, as the whole array it leaves. Region 0 runs over 25 grid points; at point t its body loads
  rows 2000·t … 2000·t + 1999 of the node features and the whole weight matrix, multiplies them (rounded to bf16 first,
  which is no change over the extended reals) into a zero accumulator, and stores the 2000 × 128 product, which the
  pipeline writes back as rows 2000·t … of the output. Entry (r, q) of a matrix product depends on row r of the left
  factor only, so block t of the output is block t of the product of the WHOLE feature matrix with the weight matrix,
  and the 25 blocks tile the 50000 rows: the output array ends holding X · W1.
-/
import proofs.«154127_j76819785056520_1_alg».proof.Proof.Gen.KernelIdeal.Frame
import proofs.«154127_j76819785056520_1_alg».proof.Proof.Spec
import proofs.«154127_j76819785056520_1_alg».proof.Proof.LibPlainDot
import Idealize.ShloMosaic.Lib.Pipeline.Value
import Idealize.ShloMosaic.Lib.ValueIdx
import Idealize.ShloMosaic.PureOps.Ideal.Laws

set_option maxRecDepth 16384

noncomputable section

namespace Cert.KernelIdeal.Whole

open Cert.KernelIdeal Cert.KernelIdeal.Gen
open Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-- Region 0's index maps over its 25 points: the feature window and the output window are at row block t, column
    block 0; the weight window stays at block (0, 0). -/
theorem index_maps0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 ∧ t.val < 25 :=
  (by decide +kernel : ∀ t : Fin grid0.N, _)

/-- The body's stored value at entry (p, q): the sum over k < 512 of the loaded feature block's (p, k) times the loaded
    weights' (k, q). -/
theorem payload0_apply (x0 : Vec Ideal S2000x512 .f32) (x1 : Vec Ideal S512x128 .f32) (p : Fin 2000) (q : Fin 128) :
    k0_pay1 x0 x1 (ix2 p q) = ∑ k : Fin 512, x0 (ix2 p k) * x1 (ix2 k q) := by
  unfold k0_pay1
  exact Cert.LibPlainDot.matmul_zero_apply (M := 2000) (K := 512) (N := 128)
    dot_S2000x512_S512x128_S2000x128_1_0_0_1_n_n.wf none (truncf .bf16 x0 bitsLt_bf16_f32) (truncf .bf16 x1 bitsLt_bf16_f32) p q

/-- The whole product at entry (r, q): the same sum along row r of the whole feature matrix. -/
theorem product1_apply (X : FVec Ideal Cert.ReferenceIdeal.S50000x512 .f32) (W : FVec Ideal Cert.ReferenceIdeal.S512x128 .f32)
    (r : Fin 50000) (q : Fin 128) :
    Cert.Gcn.product1 X W (ix2 r q) = ∑ k : Fin 512, X (ix2 r k) * W (ix2 k q) := by
  unfold Cert.Gcn.product1
  exact Cert.LibPlainDot.dotGeneral_apply (M := 50000) (K := 512) (N := 128)
    Cert.ReferenceIdeal.dot_S50000x512_S512x128_S50000x128_1_0_0_1_n_n.wf none .single X W r q

/-- The feature window's block at point t is rows 2000·t … of the feature matrix as the region finds it. -/
theorem features_block_apply (c : Dev nD) (t : Fin cfg0.N) (p : Fin 2000) (k : Fin 512) (i : S50000x512.Idx)
    (hi0 : (i 0).val = 2000 * t.val + p.val) (hi1 : (i 1).val = k.val) :
    (iblk0 V c 0 t : Vec Ideal S2000x512 .f32) (ix2 p k) = (V c main_arg0 : S50000x512.Idx → Elt Ideal .f32) i := by
  obtain ⟨h00, h01, -, -, -, -, -⟩ := index_maps0 t
  unfold iblk0
  rw [View.read_apply]
  show V c main_arg0 _ = V c main_arg0 _
  congr 1
  funext a
  apply Fin.ext
  match a with
  | ⟨0, _⟩ => show win0_0.index t 0 * 2000 + 1 * p.val = (i 0).val; rw [h00, hi0]; omega
  | ⟨1, _⟩ => show win0_0.index t 1 * 512 + 1 * k.val = (i 1).val; rw [h01, hi1]; omega

/-- The weight window's block at every point is the whole weight matrix. -/
theorem weights_block_apply (c : Dev nD) (t : Fin cfg0.N) (k : Fin 512) (q : Fin 128) :
    (iblk0 V c 1 t : Vec Ideal S512x128 .f32) (ix2 k q) = (V c main_arg2 : S512x128.Idx → Elt Ideal .f32) (ix2 k q) := by
  obtain ⟨-, -, h10, h11, -, -, -⟩ := index_maps0 t
  unfold iblk0
  rw [View.read_apply]
  show V c main_arg2 _ = V c main_arg2 _
  congr 1
  funext a
  apply Fin.ext
  match a with
  | ⟨0, _⟩ => show win0_1.index t 0 * 512 + 1 * k.val = k.val; rw [h10]; omega
  | ⟨1, _⟩ => show win0_1.index t 1 * 128 + 1 * q.val = q.val; rw [h11]; omega

/-- Entry (p, q) of what point t's body stores is entry (2000·t + p, q) of the whole product. -/
theorem product1_entry (c : Dev nD) (t : Fin cfg0.N) (p : Fin 2000) (q : Fin 128) (i : S50000x128.Idx)
    (hi0 : (i 0).val = 2000 * t.val + p.val) (hi1 : (i 1).val = q.val) :
    k0_pay1 (iblk0 V c 0 t) (iblk0 V c 1 t) (ix2 p q)
      = Cert.Gcn.product1 (F := Ideal) (V c main_arg0) (V c main_arg2) i := by
  obtain ⟨r, q', rfl⟩ : ∃ (r : Fin 50000) (q' : Fin 128), i = ix2 r q' := ⟨i 0, i 1, eq_ix2 i⟩
  have hr : r.val = 2000 * t.val + p.val := hi0
  obtain rfl : q = q' := (Fin.ext hi1).symm
  refine (payload0_apply (iblk0 V c 0 t) (iblk0 V c 1 t) p q).trans
    ((Finset.sum_congr rfl fun k _ => ?_).trans (product1_apply (V c main_arg0) (V c main_arg2) r q).symm)
  rw [features_block_apply V c t p k (ix2 r k) hr rfl, weights_block_apply V c t k q]

/-- Every row block of the output is some point's. -/
theorem index_onto0 : ∀ q0 : Fin 25, ∃ t : Fin cfg0.N, win0_2.index t (0 : Fin 2) = q0.val :=
  (by decide +kernel : ∀ q0 : Fin 25, ∃ t : Fin grid0.N, win0_2.index t (0 : Fin 2) = q0.val)

/-- WHAT POINT t WRITES BACK is block t of the whole product of the arrays as the region finds them. -/
theorem product1_block (c : Dev nD) (t : Fin cfg0.N) :
    (dat0 V c).flushed 2 t = ((cfg0.win 2).blk t).view.read (Elt Ideal)
      (Cert.Gcn.product1 (F := Ideal) (V c main_arg0) (V c main_arg2)) := by
  obtain ⟨-, -, -, -, h20, h21, -⟩ := index_maps0 t
  show (cfg0.win 2).cut (grid0.coords t) ((dat0 V c).after 2 t) = _
  rw [after0_2]
  unfold out0_2
  rw [View.canon_unit_zero zero_offsets]
  simp only [View.ld_unit_zero (S := S2000x512) zero_offsets, View.ld_unit_zero (S := S512x128) zero_offsets]
  funext j
  obtain ⟨p, q, rfl⟩ : ∃ (p : Fin 2000) (q : Fin 128), j = ix2 p q := ⟨j 0, j 1, eq_ix2 j⟩
  refine product1_entry V c t p q _ ?_ ?_
  · show win0_2.index t 0 * 2000 + 1 * p.val = 2000 * t.val + p.val
    rw [h20]; omega
  · show win0_2.index t 1 * 128 + 1 * q.val = q.val
    rw [h21]; omega

/-- An index of the output array is in point t's block iff each coordinate is in the block's range on its axis. -/
theorem mem_block0 (t : Fin cfg0.N) (i : S50000x128.Idx) :
    i ∈ ((cfg0.win 2).blk t).view.set ↔ ∀ a : Fin 2, win0_2.index t a * S2000x128.size a ≤ (i a).val ∧ (i a).val < win0_2.index t a * S2000x128.size a + S2000x128.size a := by
  show i ∈ ((View.whole main_v30).slice (win0_2.rect t)).set ↔ _
  rw [View.set_slice_whole, Rect.mem_set_unit]
  exact Iff.rfl

/-- THE ARRAY after the region: the product of the whole feature matrix with the weight matrix, as the region finds
    them (row r is in the block of point r / 2000). -/
theorem product1_array (c : Dev nD) :
    (dat0 V c).arrAt 2 cfg0.N = Cert.Gcn.product1 (F := Ideal) (V c main_arg0) (V c main_arg2) :=
  (dat0 V c).arrAt_eq_of_cover 2 _ (fun t _ => product1_block V c t) fun i => by
    have hi0 : (i 0).val < 50000 := (i 0).isLt
    have hi1 : (i 1).val < 128 := (i 1).isLt
    obtain ⟨t, ht⟩ := index_onto0 ⟨(i 0).val / 2000, by omega⟩
    obtain ⟨-, -, -, -, -, h21, -⟩ := index_maps0 t
    have ht' : win0_2.index t (0 : Fin 2) = (i 0).val / 2000 := ht
    refine ⟨t, flush0_2 t, ?_⟩
    rw [mem_block0]
    intro a
    match a with
    | ⟨0, _⟩ => show win0_2.index t (0 : Fin 2) * 2000 ≤ (i 0).val ∧ (i 0).val < win0_2.index t (0 : Fin 2) * 2000 + 2000; omega
    | ⟨1, _⟩ => show win0_2.index t (1 : Fin 2) * 128 ≤ (i 1).val ∧ (i 1).val < win0_2.index t (1 : Fin 2) * 128 + 128; omega

end Cert.KernelIdeal.Whole

end
-- ==== Proof.BiasRelu1.lean ====
/-
  The first layer's bias-and-relu, as the whole array it leaves. Region 1 runs over 10 grid points; at point t its body
  loads rows 5000·t … 5000·t + 4999 of the aggregated features and the one bias row, adds the bias to every row, takes
  the maximum with 0, and stores the 5000 × 128 block, which the pipeline writes back as rows 5000·t … of the output. The
  operation is entry by entry — entry (r, q) of the result is max(a(r, q) + b(0, q), 0) — so block t of the output is
  block t of the same operation applied to the WHOLE array, and the 10 blocks tile the 50000 rows.
-/
import proofs.«154127_j76819785056520_1_alg».proof.Proof.Gen.KernelIdeal.Frame
import proofs.«154127_j76819785056520_1_alg».proof.Proof.Spec
import Idealize.ShloMosaic.Lib.Pipeline.Value
import Idealize.ShloMosaic.Lib.ValueIdx
import Idealize.ShloMosaic.Lib.ValueLayout

set_option maxRecDepth 16384

noncomputable section

namespace Cert.KernelIdeal.Whole.BiasRelu1

open Cert.KernelIdeal Cert.KernelIdeal.Gen
open Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-- Region 1's index maps over its 10 points: the input window and the output window are at row block t, column
    block 0; the bias window stays at block (0, 0). -/
theorem index_maps : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 ∧ t.val < 10 :=
  (by decide +kernel : ∀ t : Fin grid1.N, _)

/-- Every row block of the output is some point's. -/
theorem index_onto : ∀ q0 : Fin 10, ∃ t : Fin cfg1.N, win1_2.index t (0 : Fin 2) = q0.val :=
  (by decide +kernel : ∀ q0 : Fin 10, ∃ t : Fin grid1.N, win1_2.index t (0 : Fin 2) = q0.val)

/-- The body's stored value at entry (p, q): the loaded block's entry plus the bias row's entry q, or 0 if that is
    larger. -/
theorem payload_apply (x0 : FVec Ideal S5000x128 .f32) (x1 : FVec Ideal S1x128 .f32) (p : Fin 5000) (q : Fin 128) :
    k1_pay1 x0 x1 (ix2 p q) = max (x0 (ix2 p q) + x1 (ix2 (0 : Fin 1) q)) (Ideal.ofBits .f32 0x00000000#32) := by
  unfold k1_pay1
  show max (shapeCast S5000x128 x0 shapeCasts_S5000x128_S5000x128 (ix2 p q)
      + broadcastTo S5000x128 (shapeCast S1x128 x1 shapeCasts_S1x128_S1x128) broadcasts_S1x128_S5000x128 (ix2 p q)) _ = _
  rw [shapeCast_self, shapeCast_self, broadcastTo_1b_ab_apply]
  rfl

/-- The whole-array operation at entry (r, q): the same expression of the whole array's entry. -/
theorem biasRelu_apply (a : FVec Ideal Cert.ReferenceIdeal.S50000x128 .f32) (b : FVec Ideal Cert.ReferenceIdeal.S1x128 .f32)
    (r : Fin 50000) (q : Fin 128) :
    Cert.Gcn.biasRelu128 a b (ix2 r q) = max (a (ix2 r q) + b (ix2 (0 : Fin 1) q)) (Ideal.ofBits .f32 0x00000000#32) := by
  unfold Cert.Gcn.biasRelu128
  show max (a (ix2 r q) + broadcastInDim _ ![0, 1] _ b (ix2 r q))
      (broadcastInDim _ ![] _ (constant (F := Ideal) Cert.ReferenceIdeal.S_ .f32 0x00000000#32) (ix2 r q)) = _
  rw [broadcastInDim_apply _ _ b (ix2 r q) (ix2 (0 : Fin 1) q) (fun ax => by
        match ax with
        | ⟨0, _⟩ => rfl
        | ⟨1, _⟩ => rfl),
    broadcastInDim_apply _ _ (constant (F := Ideal) Cert.ReferenceIdeal.S_ .f32 0x00000000#32) (ix2 r q) ix0 (fun ax => ax.elim0)]
  rfl

/-- The input window's block at point t is rows 5000·t … of the array as the region finds it. -/
theorem rows_block_apply (c : Dev nD) (t : Fin cfg1.N) (p : Fin 5000) (q : Fin 128) (i : S50000x128.Idx)
    (hi0 : (i 0).val = 5000 * t.val + p.val) (hi1 : (i 1).val = q.val) :
    (iblk1 V c 0 t : Vec Ideal S5000x128 .f32) (ix2 p q) = (V c main_v43 : S50000x128.Idx → Elt Ideal .f32) i := by
  obtain ⟨h00, h01, -, -, -, -, -⟩ := index_maps t
  unfold iblk1
  rw [View.read_apply]
  show V c main_v43 _ = V c main_v43 _
  congr 1
  funext a
  apply Fin.ext
  match a with
  | ⟨0, _⟩ => show win1_0.index t 0 * 5000 + 1 * p.val = (i 0).val; rw [h00, hi0]; omega
  | ⟨1, _⟩ => show win1_0.index t 1 * 128 + 1 * q.val = (i 1).val; rw [h01, hi1]; omega

/-- The bias window's block at every point is the whole bias row. -/
theorem bias_block_apply (c : Dev nD) (t : Fin cfg1.N) (u : Fin 1) (q : Fin 128) :
    (iblk1 V c 1 t : Vec Ideal S1x128 .f32) (ix2 u q) = (V c main_v44 : S1x128.Idx → Elt Ideal .f32) (ix2 u q) := by
  obtain ⟨-, -, h10, h11, -, -, -⟩ := index_maps t
  unfold iblk1
  rw [View.read_apply]
  show V c main_v44 _ = V c main_v44 _
  congr 1
  funext a
  apply Fin.ext
  match a with
  | ⟨0, _⟩ => show win1_1.index t 0 * 1 + 1 * u.val = u.val; rw [h10]; omega
  | ⟨1, _⟩ => show win1_1.index t 1 * 128 + 1 * q.val = q.val; rw [h11]; omega

/-- Entry (p, q) of what point t's body stores is entry (5000·t + p, q) of the whole-array operation. -/
theorem entry (c : Dev nD) (t : Fin cfg1.N) (p : Fin 5000) (q : Fin 128) (i : S50000x128.Idx)
    (hi0 : (i 0).val = 5000 * t.val + p.val) (hi1 : (i 1).val = q.val) :
    k1_pay1 (iblk1 V c 0 t) (iblk1 V c 1 t) (ix2 p q)
      = Cert.Gcn.biasRelu128 (F := Ideal) (V c main_v43) (V c main_v44) i := by
  obtain ⟨r, q', rfl⟩ : ∃ (r : Fin 50000) (q' : Fin 128), i = ix2 r q' := ⟨i 0, i 1, eq_ix2 i⟩
  have hr : r.val = 5000 * t.val + p.val := hi0
  obtain rfl : q = q' := (Fin.ext hi1).symm
  refine (payload_apply (iblk1 V c 0 t) (iblk1 V c 1 t) p q).trans (Eq.trans ?_ (biasRelu_apply (V c main_v43) (V c main_v44) r q).symm)
  rw [rows_block_apply V c t p q (ix2 r q) hr rfl, bias_block_apply V c t 0 q]

/-- WHAT POINT t WRITES BACK is block t of the whole-array operation on the arrays as the region finds them. -/
theorem block (c : Dev nD) (t : Fin cfg1.N) :
    (dat1 V c).flushed 2 t = ((cfg1.win 2).blk t).view.read (Elt Ideal)
      (Cert.Gcn.biasRelu128 (F := Ideal) (V c main_v43) (V c main_v44)) := by
  obtain ⟨-, -, -, -, h20, h21, -⟩ := index_maps t
  show (cfg1.win 2).cut (grid1.coords t) ((dat1 V c).after 2 t) = _
  rw [after1_2]
  unfold out1_2
  rw [View.canon_unit_zero zero_offsets]
  simp only [View.ld_unit_zero (S := S5000x128) zero_offsets, View.ld_unit_zero (S := S1x128) zero_offsets]
  funext j
  obtain ⟨p, q, rfl⟩ : ∃ (p : Fin 5000) (q : Fin 128), j = ix2 p q := ⟨j 0, j 1, eq_ix2 j⟩
  refine entry V c t p q _ ?_ ?_
  · show win1_2.index t 0 * 5000 + 1 * p.val = 5000 * t.val + p.val
    rw [h20]; omega
  · show win1_2.index t 1 * 128 + 1 * q.val = q.val
    rw [h21]; omega

/-- An index of the output array is in point t's block iff each coordinate is in the block's range on its axis. -/
theorem mem_block (t : Fin cfg1.N) (i : S50000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v45).slice (win1_2.rect t)).set ↔ _
  rw [View.set_slice_whole, Rect.mem_set_unit]
  exact Iff.rfl

/-- THE ARRAY after the region: the whole-array operation on the two input arrays as the region finds them (row r is
    in the block of point r / 5000). -/
theorem array (c : Dev nD) :
    (dat1 V c).arrAt 2 cfg1.N = Cert.Gcn.biasRelu128 (F := Ideal) (V c main_v43) (V c main_v44) :=
  (dat1 V c).arrAt_eq_of_cover 2 _ (fun t _ => block V c t) fun i => by
    have hi0 : (i 0).val < 50000 := (i 0).isLt
    have hi1 : (i 1).val < 128 := (i 1).isLt
    obtain ⟨t, ht⟩ := index_onto ⟨(i 0).val / 5000, by omega⟩
    obtain ⟨-, -, -, -, -, h21, -⟩ := index_maps t
    have ht' : win1_2.index t (0 : Fin 2) = (i 0).val / 5000 := ht
    refine ⟨t, flush1_2 t, ?_⟩
    rw [mem_block]
    intro a
    match a with
    | ⟨0, _⟩ => show win1_2.index t (0 : Fin 2) * 5000 ≤ (i 0).val ∧ (i 0).val < win1_2.index t (0 : Fin 2) * 5000 + 5000; omega
    | ⟨1, _⟩ => show win1_2.index t (1 : Fin 2) * 128 ≤ (i 1).val ∧ (i 1).val < win1_2.index t (1 : Fin 2) * 128 + 128; omega

end Cert.KernelIdeal.Whole.BiasRelu1

end
-- ==== Proof.Product2.lean ====
/-
  The second matrix product, as the whole array it leaves. Region 2 runs over 25 grid points; at point t its body loads
  rows 2000·t … 2000·t + 1999 of the hidden layer and the whole second weight matrix, multiplies them (rounded to bf16
  first, which is no change over the extended reals) into a zero accumulator, and stores the 2000 × 64 product, which
  the pipeline writes back as rows 2000·t … of the output. Entry (r, q) of a matrix product depends on row r of the left
  factor only, so block t of the output is block t of the product of the WHOLE hidden layer with the weight matrix, and
  the 25 blocks tile the 50000 rows: the output array ends holding H · W2.
-/
import proofs.«154127_j76819785056520_1_alg».proof.Proof.Gen.KernelIdeal.Frame
import proofs.«154127_j76819785056520_1_alg».proof.Proof.Spec
import proofs.«154127_j76819785056520_1_alg».proof.Proof.LibPlainDot
import Idealize.ShloMosaic.Lib.Pipeline.Value
import Idealize.ShloMosaic.Lib.ValueIdx
import Idealize.ShloMosaic.PureOps.Ideal.Laws

set_option maxRecDepth 16384

noncomputable section

namespace Cert.KernelIdeal.Whole

open Cert.KernelIdeal Cert.KernelIdeal.Gen
open Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

theorem zero_offsets2 : (![0, 0] : Fin 2 → Nat) = fun _ => 0 := funext fun a => by fin_cases a <;> rfl

/-- Region 2's index maps over its 25 points: the hidden-layer window and the output window are at row block t, column
    block 0; the weight window stays at block (0, 0). -/
theorem index_maps2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 ∧ t.val < 25 :=
  (by decide +kernel : ∀ t : Fin grid2.N, _)

/-- The body's stored value at entry (p, q): the sum over k < 128 of the loaded hidden block's (p, k) times the loaded
    weights' (k, q). -/
theorem payload2_apply (x0 : Vec Ideal S2000x128 .f32) (x1 : Vec Ideal S128x64 .f32) (p : Fin 2000) (q : Fin 64) :
    k2_pay1 x0 x1 (ix2 p q) = ∑ k : Fin 128, x0 (ix2 p k) * x1 (ix2 k q) := by
  unfold k2_pay1
  rw [shapeCast_self x0]
  exact Cert.LibPlainDot.matmul_zero_apply (M := 2000) (K := 128) (N := 64)
    dot_S2000x128_S128x64_S2000x64_1_0_0_1_n_n.wf none (truncf .bf16 x0 bitsLt_bf16_f32) (truncf .bf16 x1 bitsLt_bf16_f32) p q

/-- The whole product at entry (r, q): the same sum along row r of the whole hidden layer. -/
theorem product2_apply (X : FVec Ideal Cert.ReferenceIdeal.S50000x128 .f32) (W : FVec Ideal Cert.ReferenceIdeal.S128x64 .f32)
    (r : Fin 50000) (q : Fin 64) :
    Cert.Gcn.product2 X W (ix2 r q) = ∑ k : Fin 128, X (ix2 r k) * W (ix2 k q) := by
  unfold Cert.Gcn.product2
  exact Cert.LibPlainDot.dotGeneral_apply (M := 50000) (K := 128) (N := 64)
    Cert.ReferenceIdeal.dot_S50000x128_S128x64_S50000x64_1_0_0_1_n_n.wf none .single X W r q

/-- The hidden-layer window's block at point t is rows 2000·t … of the hidden layer as the region finds it. -/
theorem hidden_block_apply (c : Dev nD) (t : Fin cfg2.N) (p : Fin 2000) (k : Fin 128) (i : S50000x128.Idx)
    (hi0 : (i 0).val = 2000 * t.val + p.val) (hi1 : (i 1).val = k.val) :
    (iblk2 V c 0 t : Vec Ideal S2000x128 .f32) (ix2 p k) = (V c main_v45 : S50000x128.Idx → Elt Ideal .f32) i := by
  obtain ⟨h00, h01, -, -, -, -, -⟩ := index_maps2 t
  unfold iblk2
  rw [View.read_apply]
  show V c main_v45 _ = V c main_v45 _
  congr 1
  funext a
  apply Fin.ext
  match a with
  | ⟨0, _⟩ => show win2_0.index t 0 * 2000 + 1 * p.val = (i 0).val; rw [h00, hi0]; omega
  | ⟨1, _⟩ => show win2_0.index t 1 * 128 + 1 * k.val = (i 1).val; rw [h01, hi1]; omega

/-- The weight window's block at every point is the whole weight matrix. -/
theorem weights2_block_apply (c : Dev nD) (t : Fin cfg2.N) (k : Fin 128) (q : Fin 64) :
    (iblk2 V c 1 t : Vec Ideal S128x64 .f32) (ix2 k q) = (V c main_arg4 : S128x64.Idx → Elt Ideal .f32) (ix2 k q) := by
  obtain ⟨-, -, h10, h11, -, -, -⟩ := index_maps2 t
  unfold iblk2
  rw [View.read_apply]
  show V c main_arg4 _ = V c main_arg4 _
  congr 1
  funext a
  apply Fin.ext
  match a with
  | ⟨0, _⟩ => show win2_1.index t 0 * 128 + 1 * k.val = k.val; rw [h10]; omega
  | ⟨1, _⟩ => show win2_1.index t 1 * 64 + 1 * q.val = q.val; rw [h11]; omega

/-- Entry (p, q) of what point t's body stores is entry (2000·t + p, q) of the whole product. -/
theorem product2_entry (c : Dev nD) (t : Fin cfg2.N) (p : Fin 2000) (q : Fin 64) (i : S50000x64.Idx)
    (hi0 : (i 0).val = 2000 * t.val + p.val) (hi1 : (i 1).val = q.val) :
    k2_pay1 (iblk2 V c 0 t) (iblk2 V c 1 t) (ix2 p q)
      = Cert.Gcn.product2 (F := Ideal) (V c main_v45) (V c main_arg4) i := by
  obtain ⟨r, q', rfl⟩ : ∃ (r : Fin 50000) (q' : Fin 64), i = ix2 r q' := ⟨i 0, i 1, eq_ix2 i⟩
  have hr : r.val = 2000 * t.val + p.val := hi0
  obtain rfl : q = q' := (Fin.ext hi1).symm
  refine (payload2_apply (iblk2 V c 0 t) (iblk2 V c 1 t) p q).trans
    ((Finset.sum_congr rfl fun k _ => ?_).trans (product2_apply (V c main_v45) (V c main_arg4) r q).symm)
  rw [hidden_block_apply V c t p k (ix2 r k) hr rfl, weights2_block_apply V c t k q]

/-- Every row block of the output is some point's. -/
theorem index_onto2 : ∀ q0 : Fin 25, ∃ t : Fin cfg2.N, win2_2.index t (0 : Fin 2) = q0.val :=
  (by decide +kernel : ∀ q0 : Fin 25, ∃ t : Fin grid2.N, win2_2.index t (0 : Fin 2) = q0.val)

/-- WHAT POINT t WRITES BACK is block t of the whole product of the arrays as the region finds them. -/
theorem product2_block (c : Dev nD) (t : Fin cfg2.N) :
    (dat2 V c).flushed 2 t = ((cfg2.win 2).blk t).view.read (Elt Ideal)
      (Cert.Gcn.product2 (F := Ideal) (V c main_v45) (V c main_arg4)) := by
  obtain ⟨-, -, -, -, h20, h21, -⟩ := index_maps2 t
  show (cfg2.win 2).cut (grid2.coords t) ((dat2 V c).after 2 t) = _
  rw [after2_2]
  unfold out2_2
  rw [View.canon_unit_zero zero_offsets2]
  simp only [View.ld_unit_zero (S := S2000x128) zero_offsets2, View.ld_unit_zero (S := S128x64) zero_offsets2]
  funext j
  obtain ⟨p, q, rfl⟩ : ∃ (p : Fin 2000) (q : Fin 64), j = ix2 p q := ⟨j 0, j 1, eq_ix2 j⟩
  refine product2_entry V c t p q _ ?_ ?_
  · show win2_2.index t 0 * 2000 + 1 * p.val = 2000 * t.val + p.val
    rw [h20]; omega
  · show win2_2.index t 1 * 64 + 1 * q.val = q.val
    rw [h21]; omega

/-- An index of the output array is in point t's block iff each coordinate is in the block's range on its axis. -/
theorem mem_block2 (t : Fin cfg2.N) (i : S50000x64.Idx) :
    i ∈ ((cfg2.win 2).blk t).view.set ↔ ∀ a : Fin 2, win2_2.index t a * S2000x64.size a ≤ (i a).val ∧ (i a).val < win2_2.index t a * S2000x64.size a + S2000x64.size a := by
  show i ∈ ((View.whole main_v46).slice (win2_2.rect t)).set ↔ _
  rw [View.set_slice_whole, Rect.mem_set_unit]
  exact Iff.rfl

/-- THE ARRAY after the region: the product of the whole hidden layer with the second weight matrix, as the region finds
    them (row r is in the block of point r / 2000). -/
theorem product2_array (c : Dev nD) :
    (dat2 V c).arrAt 2 cfg2.N = Cert.Gcn.product2 (F := Ideal) (V c main_v45) (V c main_arg4) :=
  (dat2 V c).arrAt_eq_of_cover 2 _ (fun t _ => product2_block V c t) fun i => by
    have hi0 : (i 0).val < 50000 := (i 0).isLt
    have hi1 : (i 1).val < 64 := (i 1).isLt
    obtain ⟨t, ht⟩ := index_onto2 ⟨(i 0).val / 2000, by omega⟩
    obtain ⟨-, -, -, -, -, h21, -⟩ := index_maps2 t
    have ht' : win2_2.index t (0 : Fin 2) = (i 0).val / 2000 := ht
    refine ⟨t, flush2_2 t, ?_⟩
    rw [mem_block2]
    intro a
    match a with
    | ⟨0, _⟩ => show win2_2.index t (0 : Fin 2) * 2000 ≤ (i 0).val ∧ (i 0).val < win2_2.index t (0 : Fin 2) * 2000 + 2000; omega
    | ⟨1, _⟩ => show win2_2.index t (1 : Fin 2) * 128 ≤ (i 1).val ∧ (i 1).val < win2_2.index t (1 : Fin 2) * 64 + 64; omega

end Cert.KernelIdeal.Whole

end
-- ==== Proof.BiasRelu3.lean ====
/-
  The second layer's bias-and-relu, as the whole array it leaves. Region 3 runs over 10 grid points; at point t its body
  loads rows 5000·t … 5000·t + 4999 of the aggregated features and the one bias row, adds the bias to every row, takes
  the maximum with 0, and stores the 5000 × 64 block, which the pipeline writes back as rows 5000·t … of the output. The
  operation is entry by entry — entry (r, q) of the result is max(a(r, q) + b(0, q), 0) — so block t of the output is
  block t of the same operation applied to the WHOLE array, and the 10 blocks tile the 50000 rows.
-/
import proofs.«154127_j76819785056520_1_alg».proof.Proof.Gen.KernelIdeal.Frame
import proofs.«154127_j76819785056520_1_alg».proof.Proof.Spec
import Idealize.ShloMosaic.Lib.Pipeline.Value
import Idealize.ShloMosaic.Lib.ValueIdx
import Idealize.ShloMosaic.Lib.ValueLayout

set_option maxRecDepth 16384

noncomputable section

namespace Cert.KernelIdeal.Whole.BiasRelu3

open Cert.KernelIdeal Cert.KernelIdeal.Gen
open Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-- Region 3's index maps over its 10 points: the input window and the output window are at row block t, column
    block 0; the bias window stays at block (0, 0). -/
theorem index_maps : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 ∧ t.val < 10 :=
  (by decide +kernel : ∀ t : Fin grid3.N, _)

/-- Every row block of the output is some point's. -/
theorem index_onto : ∀ q0 : Fin 10, ∃ t : Fin cfg3.N, win3_2.index t (0 : Fin 2) = q0.val :=
  (by decide +kernel : ∀ q0 : Fin 10, ∃ t : Fin grid3.N, win3_2.index t (0 : Fin 2) = q0.val)

/-- The body's stored value at entry (p, q): the loaded block's entry plus the bias row's entry q, or 0 if that is
    larger. -/
theorem payload_apply (x0 : FVec Ideal S5000x64 .f32) (x1 : FVec Ideal S1x64 .f32) (p : Fin 5000) (q : Fin 64) :
    k3_pay1 x0 x1 (ix2 p q) = max (x0 (ix2 p q) + x1 (ix2 (0 : Fin 1) q)) (Ideal.ofBits .f32 0x00000000#32) := by
  unfold k3_pay1
  show max (shapeCast S5000x64 x0 shapeCasts_S5000x64_S5000x64 (ix2 p q)
      + broadcastTo S5000x64 (shapeCast S1x64 x1 shapeCasts_S1x64_S1x64) broadcasts_S1x64_S5000x64 (ix2 p q)) _ = _
  rw [shapeCast_self, shapeCast_self, broadcastTo_1b_ab_apply]
  rfl

/-- The whole-array operation at entry (r, q): the same expression of the whole array's entry. -/
theorem biasRelu_apply (a : FVec Ideal Cert.ReferenceIdeal.S50000x64 .f32) (b : FVec Ideal Cert.ReferenceIdeal.S1x64 .f32)
    (r : Fin 50000) (q : Fin 64) :
    Cert.Gcn.biasRelu64 a b (ix2 r q) = max (a (ix2 r q) + b (ix2 (0 : Fin 1) q)) (Ideal.ofBits .f32 0x00000000#32) := by
  unfold Cert.Gcn.biasRelu64
  show max (a (ix2 r q) + broadcastInDim _ ![0, 1] _ b (ix2 r q))
      (broadcastInDim _ ![] _ (constant (F := Ideal) Cert.ReferenceIdeal.S_ .f32 0x00000000#32) (ix2 r q)) = _
  rw [broadcastInDim_apply _ _ b (ix2 r q) (ix2 (0 : Fin 1) q) (fun ax => by
        match ax with
        | ⟨0, _⟩ => rfl
        | ⟨1, _⟩ => rfl),
    broadcastInDim_apply _ _ (constant (F := Ideal) Cert.ReferenceIdeal.S_ .f32 0x00000000#32) (ix2 r q) ix0 (fun ax => ax.elim0)]
  rfl

/-- The input window's block at point t is rows 5000·t … of the array as the region finds it. -/
theorem rows_block_apply (c : Dev nD) (t : Fin cfg3.N) (p : Fin 5000) (q : Fin 64) (i : S50000x64.Idx)
    (hi0 : (i 0).val = 5000 * t.val + p.val) (hi1 : (i 1).val = q.val) :
    (iblk3 V c 0 t : Vec Ideal S5000x64 .f32) (ix2 p q) = (V c main_v59 : S50000x64.Idx → Elt Ideal .f32) i := by
  obtain ⟨h00, h01, -, -, -, -, -⟩ := index_maps t
  unfold iblk3
  rw [View.read_apply]
  show V c main_v59 _ = V c main_v59 _
  congr 1
  funext a
  apply Fin.ext
  match a with
  | ⟨0, _⟩ => show win3_0.index t 0 * 5000 + 1 * p.val = (i 0).val; rw [h00, hi0]; omega
  | ⟨1, _⟩ => show win3_0.index t 1 * 64 + 1 * q.val = (i 1).val; rw [h01, hi1]; omega

/-- The bias window's block at every point is the whole bias row. -/
theorem bias_block_apply (c : Dev nD) (t : Fin cfg3.N) (u : Fin 1) (q : Fin 64) :
    (iblk3 V c 1 t : Vec Ideal S1x64 .f32) (ix2 u q) = (V c main_v60 : S1x64.Idx → Elt Ideal .f32) (ix2 u q) := by
  obtain ⟨-, -, h10, h11, -, -, -⟩ := index_maps t
  unfold iblk3
  rw [View.read_apply]
  show V c main_v60 _ = V c main_v60 _
  congr 1
  funext a
  apply Fin.ext
  match a with
  | ⟨0, _⟩ => show win3_1.index t 0 * 1 + 1 * u.val = u.val; rw [h10]; omega
  | ⟨1, _⟩ => show win3_1.index t 1 * 64 + 1 * q.val = q.val; rw [h11]; omega

/-- Entry (p, q) of what point t's body stores is entry (5000·t + p, q) of the whole-array operation. -/
theorem entry (c : Dev nD) (t : Fin cfg3.N) (p : Fin 5000) (q : Fin 64) (i : S50000x64.Idx)
    (hi0 : (i 0).val = 5000 * t.val + p.val) (hi1 : (i 1).val = q.val) :
    k3_pay1 (iblk3 V c 0 t) (iblk3 V c 1 t) (ix2 p q)
      = Cert.Gcn.biasRelu64 (F := Ideal) (V c main_v59) (V c main_v60) i := by
  obtain ⟨r, q', rfl⟩ : ∃ (r : Fin 50000) (q' : Fin 64), i = ix2 r q' := ⟨i 0, i 1, eq_ix2 i⟩
  have hr : r.val = 5000 * t.val + p.val := hi0
  obtain rfl : q = q' := (Fin.ext hi1).symm
  refine (payload_apply (iblk3 V c 0 t) (iblk3 V c 1 t) p q).trans (Eq.trans ?_ (biasRelu_apply (V c main_v59) (V c main_v60) r q).symm)
  rw [rows_block_apply V c t p q (ix2 r q) hr rfl, bias_block_apply V c t 0 q]

/-- WHAT POINT t WRITES BACK is block t of the whole-array operation on the arrays as the region finds them. -/
theorem block (c : Dev nD) (t : Fin cfg3.N) :
    (dat3 V c).flushed 2 t = ((cfg3.win 2).blk t).view.read (Elt Ideal)
      (Cert.Gcn.biasRelu64 (F := Ideal) (V c main_v59) (V c main_v60)) := by
  obtain ⟨-, -, -, -, h20, h21, -⟩ := index_maps t
  show (cfg3.win 2).cut (grid3.coords t) ((dat3 V c).after 2 t) = _
  rw [after3_2]
  unfold out3_2
  rw [View.canon_unit_zero zero_offsets]
  simp only [View.ld_unit_zero (S := S5000x64) zero_offsets, View.ld_unit_zero (S := S1x64) zero_offsets]
  funext j
  obtain ⟨p, q, rfl⟩ : ∃ (p : Fin 5000) (q : Fin 64), j = ix2 p q := ⟨j 0, j 1, eq_ix2 j⟩
  refine entry V c t p q _ ?_ ?_
  · show win3_2.index t 0 * 5000 + 1 * p.val = 5000 * t.val + p.val
    rw [h20]; omega
  · show win3_2.index t 1 * 64 + 1 * q.val = q.val
    rw [h21]; omega

/-- An index of the output array is in point t's block iff each coordinate is in the block's range on its axis. -/
theorem mem_block (t : Fin cfg3.N) (i : S50000x64.Idx) :
    i ∈ ((cfg3.win 2).blk t).view.set ↔ ∀ a : Fin 2, win3_2.index t a * S5000x64.size a ≤ (i a).val ∧ (i a).val < win3_2.index t a * S5000x64.size a + S5000x64.size a := by
  show i ∈ ((View.whole main_v61).slice (win3_2.rect t)).set ↔ _
  rw [View.set_slice_whole, Rect.mem_set_unit]
  exact Iff.rfl

/-- THE ARRAY after the region: the whole-array operation on the two input arrays as the region finds them (row r is
    in the block of point r / 5000). -/
theorem array (c : Dev nD) :
    (dat3 V c).arrAt 2 cfg3.N = Cert.Gcn.biasRelu64 (F := Ideal) (V c main_v59) (V c main_v60) :=
  (dat3 V c).arrAt_eq_of_cover 2 _ (fun t _ => block V c t) fun i => by
    have hi0 : (i 0).val < 50000 := (i 0).isLt
    have hi1 : (i 1).val < 64 := (i 1).isLt
    obtain ⟨t, ht⟩ := index_onto ⟨(i 0).val / 5000, by omega⟩
    obtain ⟨-, -, -, -, -, h21, -⟩ := index_maps t
    have ht' : win3_2.index t (0 : Fin 2) = (i 0).val / 5000 := ht
    refine ⟨t, flush3_2 t, ?_⟩
    rw [mem_block]
    intro a
    match a with
    | ⟨0, _⟩ => show win3_2.index t (0 : Fin 2) * 5000 ≤ (i 0).val ∧ (i 0).val < win3_2.index t (0 : Fin 2) * 5000 + 5000; omega
    | ⟨1, _⟩ => show win3_2.index t (1 : Fin 2) * 64 ≤ (i 1).val ∧ (i 1).val < win3_2.index t (1 : Fin 2) * 64 + 64; omega

end Cert.KernelIdeal.Whole.BiasRelu3

end
-- ==== Proof.LibBiasRow.lean ====
/-
  A vector of length a laid out as the one row of a [1, a] array: the reshape [a] → [1, a] and the broadcast along
  axis 1 of [1, a] are the same array, entry (0, q) being entry q of the vector. General in a and the element type.
-/
import Idealize.ShloMosaic.Lib.Pipeline.Value
import Idealize.ShloMosaic.Lib.ValueIdx
import Idealize.ShloMosaic.Lib.ValueLayout

noncomputable section

namespace Cert.LibBiasRow

open Idealize.ShloMosaic Idealize.ShloMosaic.ValueIdx

/-- The reshape of a length-a vector to [1, a] is its broadcast into [1, a] along axis 1. -/
theorem shapeCast_eq_broadcastInDim {a : ℕ} {α : Type} (b : (⟨1, ![a]⟩ : Shape).Idx → α)
    (h : (⟨1, ![a]⟩ : Shape).ShapeCasts ⟨2, ![1, a]⟩) (h' : (⟨1, ![a]⟩ : Shape).BroadcastsInDim ⟨2, ![1, a]⟩ ![1]) :
    shapeCast ⟨2, ![1, a]⟩ b h = broadcastInDim ⟨2, ![1, a]⟩ ![1] h' b := by
  funext j
  obtain ⟨u, q, rfl⟩ : ∃ (u : Fin 1) (q : Fin a), j = ix2 u q := ⟨j 0, j 1, eq_ix2 j⟩
  rw [shapeCast_a_1a_apply, broadcastInDim_apply ![1] h' b (ix2 u q) (ix1 q) (fun ax => by
    match ax with
    | ⟨0, _⟩ =>
      show q.val = if a = 1 then 0 else q.val
      split
      · have := q.isLt; omega
      · rfl)]

end Cert.LibBiasRow

end
-- ==== Proof.KernelValue.lean ====
/-
  The kernel program's result as a function of its arguments. The buffer contents at the nine boundaries of @main are
  read one after the other: the first three stretches of host operations leave the sources, the targets and the edge
  weights of the graph (read in their own module); the first region leaves X · W1; the next stretch gathers, weights
  and adds up its rows along the edges and lays the first bias out as a row; the second region adds the bias and takes the maximum with 0, which
  is the hidden layer; the third region multiplies it with W2; the last stretch aggregates again and lays out the
  second bias; the last region adds it and takes the maximum with 0. Each region contributes its whole-array value,
  each stretch its operations' composed value, and what a later stage reads of an earlier one is what the earlier one
  left, no operation in between writing it. The result buffer ends holding `Cert.Gcn.network` of the six arguments.
-/
import proofs.«154127_j76819785056520_1_alg».proof.Proof.Carry
import proofs.«154127_j76819785056520_1_alg».proof.Proof.GraphValue
import proofs.«154127_j76819785056520_1_alg».proof.Proof.Product1
import proofs.«154127_j76819785056520_1_alg».proof.Proof.BiasRelu1
import proofs.«154127_j76819785056520_1_alg».proof.Proof.Product2
import proofs.«154127_j76819785056520_1_alg».proof.Proof.BiasRelu3
import proofs.«154127_j76819785056520_1_alg».proof.Proof.LibBiasRow
import Idealize.ShloMosaic.Lib.StableHlo.Run

set_option maxRecDepth 16384

noncomputable section

namespace Cert.KernelIdeal.Whole

open Cert.KernelIdeal Cert.KernelIdeal.Gen
open Idealize.ShloMosaic Idealize.ShloMosaic.TcCoe Idealize.ShloMosaic.StableHlo

variable (m : (ℓ : Loc nD τ sig) → Buf (Elt Ideal) ℓ) (ρ : Dev nD → PrngReg) (c : Dev nD)

/-! ## The first layer -/

/-- The first region leaves X · W1. -/
theorem product1_at_W4 : W4 m ρ c (Proc.devRef .tc main_v30)
    = Cert.Gcn.product1 (F := Ideal) (m ((c : Thread nD τ).loc main_arg0)) (m ((c : Thread nD τ).loc main_arg2)) :=
  (W4_arr m ρ c 2).trans ((product1_array (V3 m ρ) c).trans
    (congrArg₂ (Cert.Gcn.product1 (F := Ideal)) (arg0_at_W3 m ρ c) (arg2_at_W3 m ρ c)))

set_option maxHeartbeats 4000000 in
/-- The stretch after it leaves the weighted neighbourhood sum of what it finds … -/
theorem sums1_at_W5_of_W4 : W5 m ρ c (Proc.devRef .tc main_v43)
    = Cert.Gcn.weightedSum128 (F := Ideal) (W4 m ρ c (Proc.devRef .tc main_v3)) (W4 m ρ c (Proc.devRef .tc main_v6))
        (W4 m ρ c (Proc.devRef .tc main_v29)) (W4 m ρ c (Proc.devRef .tc main_v30)) := by
  show after hostOps1 (W4 m ρ c) (Proc.devRef .tc main_v43) = _
  after_results_simp
  rfl

/-- … which is A(X · W1) of the graph. -/
theorem sums1_at_W5 : W5 m ρ c (Proc.devRef .tc main_v43)
    = Cert.Gcn.aggregate128 (F := Ideal) (m ((c : Thread nD τ).loc main_arg1)) (Cert.Gcn.product1 (F := Ideal) (m ((c : Thread nD τ).loc main_arg0)) (m ((c : Thread nD τ).loc main_arg2))) := by
  rw [sums1_at_W5_of_W4, sources_at_W4, targets_at_W4, weights_at_W4, sources_at_W3, targets_at_W3, weights_at_W3, product1_at_W4]
  rfl

set_option maxHeartbeats 4000000 in
/-- The same stretch lays the first bias out as a row. -/
theorem bias1_at_W5 : W5 m ρ c (Proc.devRef .tc main_v44)
    = broadcastInDim Cert.ReferenceIdeal.S1x128 ![1] Cert.ReferenceIdeal.Facts₀.bcast_S128_S1x128_1 (m ((c : Thread nD τ).loc main_arg3)) := by
  have h : W5 m ρ c (Proc.devRef .tc main_v44) = shapeCast S1x128 (W4 m ρ c (Proc.devRef .tc main_arg3)) shapeCasts_S128_S1x128 := by
    show after hostOps1 (W4 m ρ c) (Proc.devRef .tc main_v44) = _
    after_results_simp
    rfl
  rw [h, arg3_at_W4]
  exact Cert.LibBiasRow.shapeCast_eq_broadcastInDim (a := 128) _ _ _

/-- The second region leaves the hidden layer. -/
theorem hidden_at_W6 : W6 m ρ c (Proc.devRef .tc main_v45)
    = Cert.Gcn.hidden (F := Ideal) (m ((c : Thread nD τ).loc main_arg0)) (m ((c : Thread nD τ).loc main_arg1)) (m ((c : Thread nD τ).loc main_arg2)) (m ((c : Thread nD τ).loc main_arg3)) :=
  (W6_arr m ρ c 2).trans ((BiasRelu1.array (V5 m ρ) c).trans
    (congrArg₂ (Cert.Gcn.biasRelu128 (F := Ideal)) (sums1_at_W5 m ρ c) (bias1_at_W5 m ρ c)))

/-! ## The second layer -/

/-- The third region leaves H · W2. -/
theorem product2_at_W7 : W7 m ρ c (Proc.devRef .tc main_v46)
    = Cert.Gcn.product2 (F := Ideal) (Cert.Gcn.hidden (F := Ideal) (m ((c : Thread nD τ).loc main_arg0)) (m ((c : Thread nD τ).loc main_arg1)) (m ((c : Thread nD τ).loc main_arg2)) (m ((c : Thread nD τ).loc main_arg3))) (m ((c : Thread nD τ).loc main_arg4)) :=
  (W7_arr m ρ c 2).trans ((product2_array (V6 m ρ) c).trans
    (congrArg₂ (Cert.Gcn.product2 (F := Ideal)) (hidden_at_W6 m ρ c) (arg4_at_W6 m ρ c)))

set_option maxHeartbeats 4000000 in
/-- The last stretch leaves the weighted neighbourhood sum of what it finds … -/
theorem sums2_at_W8_of_W7 : W8 m ρ c (Proc.devRef .tc main_v59)
    = Cert.Gcn.weightedSum64 (F := Ideal) (W7 m ρ c (Proc.devRef .tc main_v3)) (W7 m ρ c (Proc.devRef .tc main_v6))
        (W7 m ρ c (Proc.devRef .tc main_v29)) (W7 m ρ c (Proc.devRef .tc main_v46)) := by
  show after hostOps3 (W7 m ρ c) (Proc.devRef .tc main_v59) = _
  after_results_simp
  rfl

/-- … which is A(H · W2) of the graph. -/
theorem sums2_at_W8 : W8 m ρ c (Proc.devRef .tc main_v59)
    = Cert.Gcn.aggregate64 (F := Ideal) (m ((c : Thread nD τ).loc main_arg1)) (Cert.Gcn.product2 (F := Ideal) (Cert.Gcn.hidden (F := Ideal) (m ((c : Thread nD τ).loc main_arg0)) (m ((c : Thread nD τ).loc main_arg1)) (m ((c : Thread nD τ).loc main_arg2)) (m ((c : Thread nD τ).loc main_arg3))) (m ((c : Thread nD τ).loc main_arg4))) := by
  rw [sums2_at_W8_of_W7, sources_at_W7, targets_at_W7, weights_at_W7, sources_at_W3, targets_at_W3, weights_at_W3, product2_at_W7]
  rfl

set_option maxHeartbeats 4000000 in
/-- The same stretch lays the second bias out as a row. -/
theorem bias2_at_W8 : W8 m ρ c (Proc.devRef .tc main_v60)
    = broadcastInDim Cert.ReferenceIdeal.S1x64 ![1] Cert.ReferenceIdeal.Facts₀.bcast_S64_S1x64_1 (m ((c : Thread nD τ).loc main_arg5)) := by
  have h : W8 m ρ c (Proc.devRef .tc main_v60) = shapeCast S1x64 (W7 m ρ c (Proc.devRef .tc main_arg5)) shapeCasts_S64_S1x64 := by
    show after hostOps3 (W7 m ρ c) (Proc.devRef .tc main_v60) = _
    after_results_simp
    rfl
  rw [h, arg5_at_W7]
  exact Cert.LibBiasRow.shapeCast_eq_broadcastInDim (a := 64) _ _ _

/-- THE RESULT: the last region leaves the network's output of the six arguments. -/
theorem result_at_W9 : W9 m ρ c (Proc.devRef .tc main_v61)
    = Cert.Gcn.network (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  (W9_arr m ρ c 2).trans ((BiasRelu3.array (V8 m ρ) c).trans
    (congrArg₂ (Cert.Gcn.biasRelu64 (F := Ideal)) (sums2_at_W8 m ρ c) (bias2_at_W8 m ρ c)))

end Cert.KernelIdeal.Whole

end
-- ==== Proof.RefRun.lean ====
/-
  The reference program's run, read back: its @main is a straight line of 86 host operations (the three outlined
  functions, a `where` and two `relu`s, standing inline at their calls), so every weakly fair execution terminates with
  each buffer at the operations' composed value of the launch contents. Composed, the result buffer holds the two-layer
  graph convolution `Cert.Gcn.network` of the six arguments, and no operation writes an argument.
-/
import proofs.«154127_j76819785056520_1_alg».proof.Proof.Spec
import Idealize.ShloMosaic.Lib.StableHlo.Run

noncomputable section

namespace Cert.ReferenceIdeal.HostRun

open Cert.ReferenceIdeal Cert.ReferenceIdeal.Gen Idealize.ShloMosaic Idealize.ShloMosaic.TcCoe Idealize.SL.Sem Idealize.ShloMosaic.StableHlo

variable {F : FTy → Type} [FloatOps F]

/-- @main's 86 operations, in order (a called function's operations stand in its call's place). -/
abbrev ops : List (HloOp τ sig (Elt F)) :=
  [ nullary main_v0 (iotaInDim S50000 32 0),
    unary main_arg1 main_v1 ((extractStridedSlice S1x800000 ![0, 0] · slices_S2x800000_S1x800000_0_0) : (⟨S2x800000, .i32⟩ : BufTy).Contents (Elt F) → (⟨S1x800000, .i32⟩ : BufTy).Contents (Elt F)),
    reshape main_v1 main_v2 rfl shapeCasts_S1x800000_S800000,
    binary main_v2 main_v0 main_v3 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    unary main_arg1 main_v4 ((extractStridedSlice S1x800000 ![1, 0] · slices_S2x800000_S1x800000_1_0) : (⟨S2x800000, .i32⟩ : BufTy).Contents (Elt F) → (⟨S1x800000, .i32⟩ : BufTy).Contents (Elt F)),
    reshape main_v4 main_v5 rfl shapeCasts_S1x800000_S800000,
    binary main_v5 main_v0 main_v6 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    nullary main_cst (constant S_ .f32 0x3F800000#32),
    unary main_cst main_v7 (broadcastInDim S850000 ![] bcast_S_S850000 : (⟨S_, .f32⟩ : BufTy).Contents (Elt F) → (⟨S850000, .f32⟩ : BufTy).Contents (Elt F)),
    nullary main_cst_0 (constant S_ .f32 0x00000000#32),
    unary main_cst_0 main_v8 (broadcastInDim S50000 ![] bcast_S_S50000 : (⟨S_, .f32⟩ : BufTy).Contents (Elt F) → (⟨S50000, .f32⟩ : BufTy).Contents (Elt F)),
    unary main_v6 main_v9 (broadcastInDim S850000x1 ![0] bcast_S850000_S850000x1_0 : (⟨S850000, .i32⟩ : BufTy).Contents (Elt F) → (⟨S850000x1, .i32⟩ : BufTy).Contents (Elt F)),
    ternary main_v8 main_v9 main_v7 main_v10 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    nullary main_cst_1 (constant S_ .f32 0x00000000#32),
    unary main_cst_1 main_v11 (broadcastInDim S50000 ![] bcast_S_S50000 : (⟨S_, .f32⟩ : BufTy).Contents (Elt F) → (⟨S50000, .f32⟩ : BufTy).Contents (Elt F)),
    binary main_v10 main_v11 main_v12 (cmpf .ogt : (⟨S50000, .f32⟩ : BufTy).Contents (Elt F) → (⟨S50000, .f32⟩ : BufTy).Contents (Elt F) → (⟨S50000, .i1⟩ : BufTy).Contents (Elt F)),
    unary main_v10 main_v13 (Host.rsqrt : (⟨S50000, .f32⟩ : BufTy).Contents (Elt F) → (⟨S50000, .f32⟩ : BufTy).Contents (Elt F)),
    nullary main_cst_2 (constant S_ .f32 0x00000000#32),
    TRef.unary (TRef.of (T := ⟨S_, .f32⟩) main_cst_2) (TRef.of (T := ⟨S_, .f32⟩) main_call0_v0) id,
    TRef.unary (TRef.of (T := ⟨S_, .f32⟩) main_call0_v0) (TRef.of (T := ⟨S50000, .f32⟩) main_call0_v1) (broadcastInDim S50000 ![] bcast_S_S50000),
    TRef.ternary (TRef.of (T := ⟨S50000, .i1⟩) main_v12) (TRef.of (T := ⟨S50000, .f32⟩) main_v13) (TRef.of (T := ⟨S50000, .f32⟩) main_call0_v1) (TRef.of (T := ⟨S50000, .f32⟩) main_v14) select,
    nullary main_c (constantI S_ 32 0#32),
    unary main_c main_v15 (broadcastInDim S850000 ![] bcast_S_S850000 : (⟨S_, .i32⟩ : BufTy).Contents (Elt F) → (⟨S850000, .i32⟩ : BufTy).Contents (Elt F)),
    binary main_v3 main_v15 main_v16 (cmpi .slt : (⟨S850000, .i32⟩ : BufTy).Contents (Elt F) → (⟨S850000, .i32⟩ : BufTy).Contents (Elt F) → (⟨S850000, .i1⟩ : BufTy).Contents (Elt F)),
    nullary main_c_3 (constantI S_ 32 50000#32),
    unary main_c_3 main_v17 (broadcastInDim S850000 ![] bcast_S_S850000 : (⟨S_, .i32⟩ : BufTy).Contents (Elt F) → (⟨S850000, .i32⟩ : BufTy).Contents (Elt F)),
    binary main_v3 main_v17 main_v18 (addi : (⟨S850000, .i32⟩ : BufTy).Contents (Elt F) → (⟨S850000, .i32⟩ : BufTy).Contents (Elt F) → (⟨S850000, .i32⟩ : BufTy).Contents (Elt F)),
    ternary main_v16 main_v18 main_v3 main_v19 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v19 main_v20 (broadcastInDim S850000x1 ![0] bcast_S850000_S850000x1_0 : (⟨S850000, .i32⟩ : BufTy).Contents (Elt F) → (⟨S850000x1, .i32⟩ : BufTy).Contents (Elt F)),
    binary main_v14 main_v20 main_v21 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    nullary main_c_4 (constantI S_ 32 0#32),
    unary main_c_4 main_v22 (broadcastInDim S850000 ![] bcast_S_S850000 : (⟨S_, .i32⟩ : BufTy).Contents (Elt F) → (⟨S850000, .i32⟩ : BufTy).Contents (Elt F)),
    binary main_v6 main_v22 main_v23 (cmpi .slt : (⟨S850000, .i32⟩ : BufTy).Contents (Elt F) → (⟨S850000, .i32⟩ : BufTy).Contents (Elt F) → (⟨S850000, .i1⟩ : BufTy).Contents (Elt F)),
    nullary main_c_5 (constantI S_ 32 50000#32),
    unary main_c_5 main_v24 (broadcastInDim S850000 ![] bcast_S_S850000 : (⟨S_, .i32⟩ : BufTy).Contents (Elt F) → (⟨S850000, .i32⟩ : BufTy).Contents (Elt F)),
    binary main_v6 main_v24 main_v25 (addi : (⟨S850000, .i32⟩ : BufTy).Contents (Elt F) → (⟨S850000, .i32⟩ : BufTy).Contents (Elt F) → (⟨S850000, .i32⟩ : BufTy).Contents (Elt F)),
    ternary main_v23 main_v25 main_v6 main_v26 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v26 main_v27 (broadcastInDim S850000x1 ![0] bcast_S850000_S850000x1_0 : (⟨S850000, .i32⟩ : BufTy).Contents (Elt F) → (⟨S850000x1, .i32⟩ : BufTy).Contents (Elt F)),
    binary main_v14 main_v27 main_v28 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    binary main_v21 main_v28 main_v29 (mulf : (⟨S850000, .f32⟩ : BufTy).Contents (Elt F) → (⟨S850000, .f32⟩ : BufTy).Contents (Elt F) → (⟨S850000, .f32⟩ : BufTy).Contents (Elt F)),
    binary main_arg0 main_arg2 main_v30 ((fun l r => Host.dotGeneral dot_S50000x512_S512x128_S50000x128_1_0_0_1_n_n none l r) : (⟨S50000x512, .f32⟩ : BufTy).Contents (Elt F) → (⟨S512x128, .f32⟩ : BufTy).Contents (Elt F) → (⟨S50000x128, .f32⟩ : BufTy).Contents (Elt F)),
    nullary main_c_6 (constantI S_ 32 0#32),
    unary main_c_6 main_v31 (broadcastInDim S850000 ![] bcast_S_S850000 : (⟨S_, .i32⟩ : BufTy).Contents (Elt F) → (⟨S850000, .i32⟩ : BufTy).Contents (Elt F)),
    binary main_v3 main_v31 main_v32 (cmpi .slt : (⟨S850000, .i32⟩ : BufTy).Contents (Elt F) → (⟨S850000, .i32⟩ : BufTy).Contents (Elt F) → (⟨S850000, .i1⟩ : BufTy).Contents (Elt F)),
    nullary main_c_7 (constantI S_ 32 50000#32),
    unary main_c_7 main_v33 (broadcastInDim S850000 ![] bcast_S_S850000 : (⟨S_, .i32⟩ : BufTy).Contents (Elt F) → (⟨S850000, .i32⟩ : BufTy).Contents (Elt F)),
    binary main_v3 main_v33 main_v34 (addi : (⟨S850000, .i32⟩ : BufTy).Contents (Elt F) → (⟨S850000, .i32⟩ : BufTy).Contents (Elt F) → (⟨S850000, .i32⟩ : BufTy).Contents (Elt F)),
    ternary main_v32 main_v34 main_v3 main_v35 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v35 main_v36 (broadcastInDim S850000x1 ![0] bcast_S850000_S850000x1_0 : (⟨S850000, .i32⟩ : BufTy).Contents (Elt F) → (⟨S850000x1, .i32⟩ : BufTy).Contents (Elt F)),
    binary main_v30 main_v36 main_v37 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),
    unary main_v29 main_v38 (broadcastInDim S850000x1 ![0] bcast_S850000_S850000x1_0 : (⟨S850000, .f32⟩ : BufTy).Contents (Elt F) → (⟨S850000x1, .f32⟩ : BufTy).Contents (Elt F)),
    unary main_v38 main_v39 (broadcastInDim S850000x128 ![0, 1] bcast_S850000x1_S850000x128_0_1 : (⟨S850000x1, .f32⟩ : BufTy).Contents (Elt F) → (⟨S850000x128, .f32⟩ : BufTy).Contents (Elt F)),
    binary main_v37 main_v39 main_v40 (mulf : (⟨S850000x128, .f32⟩ : BufTy).Contents (Elt F) → (⟨S850000x128, .f32⟩ : BufTy).Contents (Elt F) → (⟨S850000x128, .f32⟩ : BufTy).Contents (Elt F)),
    nullary main_cst_8 (constant S_ .f32 0x00000000#32),
    unary main_cst_8 main_v41 (broadcastInDim S50000x128 ![] bcast_S_S50000x128 : (⟨S_, .f32⟩ : BufTy).Contents (Elt F) → (⟨S50000x128, .f32⟩ : BufTy).Contents (Elt F)),
    unary main_v6 main_v42 (broadcastInDim S850000x1 ![0] bcast_S850000_S850000x1_0 : (⟨S850000, .i32⟩ : BufTy).Contents (Elt F) → (⟨S850000x1, .i32⟩ : BufTy).Contents (Elt F)),
    ternary main_v41 main_v42 main_v40 main_v43 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)),
    unary main_arg3 main_v44 (broadcastInDim S1x128 ![1] bcast_S128_S1x128_1 : (⟨S128, .f32⟩ : BufTy).Contents (Elt F) → (⟨S1x128, .f32⟩ : BufTy).Contents (Elt F)),
    unary main_v44 main_v45 (broadcastInDim S50000x128 ![0, 1] bcast_S1x128_S50000x128_0_1 : (⟨S1x128, .f32⟩ : BufTy).Contents (Elt F) → (⟨S50000x128, .f32⟩ : BufTy).Contents (Elt F)),
    binary main_v43 main_v45 main_v46 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S50000x128, .f32⟩) main_call1_v0) (broadcastInDim S50000x128 ![] bcast_S_S50000x128),
    TRef.binary (TRef.of (T := ⟨S50000x128, .f32⟩) main_v46) (TRef.of (T := ⟨S50000x128, .f32⟩) main_call1_v0) (TRef.of (T := ⟨S50000x128, .f32⟩) main_v47) maximumf,
    binary main_v47 main_arg4 main_v48 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)),
    nullary main_c_9 (constantI S_ 32 0#32),
    unary main_c_9 main_v49 (broadcastInDim S850000 ![] bcast_S_S850000 : (⟨S_, .i32⟩ : BufTy).Contents (Elt F) → (⟨S850000, .i32⟩ : BufTy).Contents (Elt F)),
    binary main_v3 main_v49 main_v50 (cmpi .slt : (⟨S850000, .i32⟩ : BufTy).Contents (Elt F) → (⟨S850000, .i32⟩ : BufTy).Contents (Elt F) → (⟨S850000, .i1⟩ : BufTy).Contents (Elt F)),
    nullary main_c_10 (constantI S_ 32 50000#32),
    unary main_c_10 main_v51 (broadcastInDim S850000 ![] bcast_S_S850000 : (⟨S_, .i32⟩ : BufTy).Contents (Elt F) → (⟨S850000, .i32⟩ : BufTy).Contents (Elt F)),
    binary main_v3 main_v51 main_v52 (addi : (⟨S850000, .i32⟩ : BufTy).Contents (Elt F) → (⟨S850000, .i32⟩ : BufTy).Contents (Elt F) → (⟨S850000, .i32⟩ : BufTy).Contents (Elt F)),
    ternary main_v50 main_v52 main_v3 main_v53 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v53 main_v54 (broadcastInDim S850000x1 ![0] bcast_S850000_S850000x1_0 : (⟨S850000, .i32⟩ : BufTy).Contents (Elt F) → (⟨S850000x1, .i32⟩ : BufTy).Contents (Elt F)),
    binary main_v48 main_v54 main_v55 ((fun x i => Host.gather gather_S50000x64_S850000x1_S850000x64_1_0_n_n_0_1_164 x i) : (⟨S50000x64, .f32⟩ : BufTy).Contents (Elt F) → (⟨S850000x1, .i32⟩ : BufTy).Contents (Elt F) → (⟨S850000x64, .f32⟩ : BufTy).Contents (Elt F)),
    unary main_v29 main_v56 (broadcastInDim S850000x1 ![0] bcast_S850000_S850000x1_0 : (⟨S850000, .f32⟩ : BufTy).Contents (Elt F) → (⟨S850000x1, .f32⟩ : BufTy).Contents (Elt F)),
    unary main_v56 main_v57 (broadcastInDim S850000x64 ![0, 1] bcast_S850000x1_S850000x64_0_1 : (⟨S850000x1, .f32⟩ : BufTy).Contents (Elt F) → (⟨S850000x64, .f32⟩ : BufTy).Contents (Elt F)),
    binary main_v55 main_v57 main_v58 (mulf : (⟨S850000x64, .f32⟩ : BufTy).Contents (Elt F) → (⟨S850000x64, .f32⟩ : BufTy).Contents (Elt F) → (⟨S850000x64, .f32⟩ : BufTy).Contents (Elt F)),
    nullary main_cst_11 (constant S_ .f32 0x00000000#32),
    unary main_cst_11 main_v59 (broadcastInDim S50000x64 ![] bcast_S_S50000x64 : (⟨S_, .f32⟩ : BufTy).Contents (Elt F) → (⟨S50000x64, .f32⟩ : BufTy).Contents (Elt F)),
    unary main_v6 main_v60 (broadcastInDim S850000x1 ![0] bcast_S850000_S850000x1_0 : (⟨S850000, .i32⟩ : BufTy).Contents (Elt F) → (⟨S850000x1, .i32⟩ : BufTy).Contents (Elt F)),
    ternary main_v59 main_v60 main_v58 main_v61 ((fun x i u => Host.scatterAdd scatter_S50000x64_S850000x1_S850000x64_1_0_0_1 x i u) : (⟨S50000x64, .f32⟩ : BufTy).Contents (Elt F) → (⟨S850000x1, .i32⟩ : BufTy).Contents (Elt F) → (⟨S850000x64, .f32⟩ : BufTy).Contents (Elt F) → (⟨S50000x64, .f32⟩ : BufTy).Contents (Elt F)),
    unary main_arg5 main_v62 (broadcastInDim S1x64 ![1] bcast_S64_S1x64_1 : (⟨S64, .f32⟩ : BufTy).Contents (Elt F) → (⟨S1x64, .f32⟩ : BufTy).Contents (Elt F)),
    unary main_v62 main_v63 (broadcastInDim S50000x64 ![0, 1] bcast_S1x64_S50000x64_0_1 : (⟨S1x64, .f32⟩ : BufTy).Contents (Elt F) → (⟨S50000x64, .f32⟩ : BufTy).Contents (Elt F)),
    binary main_v61 main_v63 main_v64 (addf : (⟨S50000x64, .f32⟩ : BufTy).Contents (Elt F) → (⟨S50000x64, .f32⟩ : BufTy).Contents (Elt F) → (⟨S50000x64, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S50000x64, .f32⟩) main_call2_v0) (broadcastInDim S50000x64 ![] bcast_S_S50000x64),
    TRef.binary (TRef.of (T := ⟨S50000x64, .f32⟩) main_v64) (TRef.of (T := ⟨S50000x64, .f32⟩) main_call2_v0) (TRef.of (T := ⟨S50000x64, .f32⟩) main_v65) maximumf ]

set_option maxRecDepth 8192 in
set_option maxHeartbeats 4000000 in
/-- @main is the sequence of those operations. -/
theorem main_eq (c : Dev nD) : main (F := F) c = seq ops := rfl
/-- The reference allocates no scoped buffer … -/
theorem scopedRefs_eq : (Finset.univ.filter fun b : Ref sig .tc => b.isScoped) = ∅ := by decide
/-- … and no scoped semaphore. -/
theorem scopedSems_eq : (Finset.univ.filter fun sm : SemLoc sig => sm.isScoped .tc) = ∅ := by decide
set_option maxRecDepth 8192 in
/-- Every operation touches TensorCore buffers only. -/
theorem ops_sub : (ops : List (HloOp τ sig (Elt F))).Forall fun op => op.bufs ⊆ tcRefs τ sig :=
  ⟨nullary_bufs_sub .., unary_bufs_sub .., reshape_bufs_sub .., binary_bufs_sub .., unary_bufs_sub .., reshape_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub ..⟩

set_option maxRecDepth 8192 in
set_option maxHeartbeats 34400000 in
/-- The result buffer after the 86 operations holds the network of the launch contents of the six arguments. -/
theorem result_eq (m : (ℓ : Loc nD τ sig) → Buf (Elt F) ℓ) (c : Dev nD) :
    after (ops (F := F)) (launchContents m c) (Proc.devRef .tc main_v65)
      = Cert.Gcn.network (F := F) (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5)) := by
  after_results_simp
  rfl

set_option maxRecDepth 8192 in
set_option maxHeartbeats 34400000 in
/-- On every device, from any memory with zero counters: every weakly fair execution of @main terminates, nothing
    faulting, with the result buffer at the network of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v65)
        = Cert.Gcn.network (F := F) (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v65).trans (result_eq m c),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl)⟩)
    (run_seq scopedRefs_eq scopedSems_eq defs main (fun _ => ops) main_eq (fun _ => ops_sub) m ρ)

end Cert.ReferenceIdeal.HostRun

end
-- ==== Proof.lean ====
/-
  The kernel computes a two-layer graph convolution — per layer a dense transform, a weighted sum over each node's
  incoming edges (self-loops included; the weight of an edge u → v is d(u) · d(v), d = 1/sqrt(degree) where the degree is
  positive and 0 elsewhere), a bias and a relu — with the two dense
  transforms and the two bias-and-relu steps as four tiled regions among host operations for the irregular gather and
  scatter-add; the reference computes the same with plain host operations throughout.

  Over the extended reals the two programs compute ONE function of the six arguments, `Cert.Gcn.network`:
  * the host operations that build the graph's sources, targets and edge weights, and those that gather, weight and
    add up rows along the edges, are the same operations in both programs, applied to values shown equal; they are
    never opened;
  * a tiled matrix product whose operands are rounded to bf16 (no change over the extended reals) and accumulated from
    zero is, block of rows by block of rows, the product of the whole left factor: entry (r, q) is the sum over k of
    a(r, k) · w(k, q) in both, a sum that is neither reordered nor regrouped;
  * bias-and-relu is entry by entry max(a(r, q) + b(q), 0) in both, the kernel reading the bias as a [1, n] row it gets
    by a reshape, the reference by a broadcast — the same row.
  No finiteness of the inputs is used: no law that fails at an infinity is applied.
  The three frames are the generated frame runs of the two kernel programs and the reference's run with its result
  dropped; the idealization rewrote nothing, so `preserves` is trivial.
-/
import proofs.«154127_j76819785056520_1_alg».proof.Defs
import proofs.«154127_j76819785056520_1_alg».proof.Proof.Gen.Kernel
import proofs.«154127_j76819785056520_1_alg».proof.Proof.Gen.Kernel.Skeleton
import proofs.«154127_j76819785056520_1_alg».proof.Proof.Gen.Kernel.Launch
import proofs.«154127_j76819785056520_1_alg».proof.Proof.Gen.Kernel.Points
import proofs.«154127_j76819785056520_1_alg».proof.Proof.Gen.Kernel.Frame
import proofs.«154127_j76819785056520_1_alg».proof.Proof.Gen.KernelIdeal
import proofs.«154127_j76819785056520_1_alg».proof.Proof.Gen.KernelIdeal.Skeleton
import proofs.«154127_j76819785056520_1_alg».proof.Proof.Gen.KernelIdeal.Launch
import proofs.«154127_j76819785056520_1_alg».proof.Proof.Gen.KernelIdeal.Points
import proofs.«154127_j76819785056520_1_alg».proof.Proof.Gen.KernelIdeal.Frame
import proofs.«154127_j76819785056520_1_alg».proof.Proof.Gen.ReferenceIdeal
import proofs.«154127_j76819785056520_1_alg».proof.Proof.Gen.Pre_finite_inputs
import proofs.«154127_j76819785056520_1_alg».proof.Proof.KernelRun
import proofs.«154127_j76819785056520_1_alg».proof.Proof.KernelValue
import proofs.«154127_j76819785056520_1_alg».proof.Proof.RefRun
import Idealize.ShloMosaic.Adequacy
import Idealize.ShloMosaic.Init

noncomputable section

namespace Cert.Proof

open Idealize.ShloMosaic Idealize.ShloMosaic.TcCoe Idealize.SL.Sem

/-- The word-level kernel program runs and leaves its arguments: its generated frame run. -/
theorem frame_kernel : Cert.frame_Kernel := fun m ρ _ => Cert.Kernel.Gen.frame m ρ

/-- The idealized kernel program likewise. -/
theorem frame_kernelIdeal : Cert.frame_KernelIdeal := fun m ρ _ => Cert.KernelIdeal.Gen.frame m ρ

/-- The reference runs and leaves its arguments: its run, the result dropped. -/
theorem frame_reference : Cert.frame_ReferenceIdeal := fun m ρ _ =>
  (θ_run Cert.ReferenceIdeal.defs _ _).mono (fun _ h c => (h c).2) (Cert.ReferenceIdeal.HostRun.run (F := Ideal) m ρ)

/-- The idealization rewrote no operation. -/
theorem preserves : Cert.preserves_Kernel_KernelIdeal := trivial

/-- Both idealized programs end with the result buffer at the network of the arguments, which agree. -/
theorem algebraic : Cert.algebraic_KernelIdeal_ReferenceIdeal := by
  intro m ρ m' ρ' _ hagree
  refine ⟨fun c => Cert.Gcn.network (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono
      (fun _ h c => ⟨(h c).1.trans (Cert.KernelIdeal.Whole.result_at_W9 m ρ c), (h c).2⟩)
      (Cert.KernelIdeal.Whole.run_result (F := Ideal) m ρ)
  · refine (θ_run Cert.ReferenceIdeal.defs _ _).mono (fun _ h c => ⟨(h c).1.trans ?_, (h c).2⟩)
      (Cert.ReferenceIdeal.HostRun.run (F := Ideal) m' ρ')
    rw [(hagree c).1, (hagree c).2.1, (hagree c).2.2.1, (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
